-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 195
  | .vmem => 43
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S1x1600000, .i32⟩
  | 18 => ⟨S1600000, .i32⟩
  | 19 => ⟨S100000, .i32⟩
  | 20 => ⟨S1700000, .i32⟩
  | 21 => ⟨S1x1600000, .i32⟩
  | 22 => ⟨S1600000, .i32⟩
  | 23 => ⟨S100000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S1x128, .f32⟩
  | 96 => ⟨S1x128, .f32⟩
  | 97 => ⟨S1x128, .f32⟩
  | 98 => ⟨S100000x128, .f32⟩
  | 99 => ⟨S100000x128, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000x128, .f32⟩
  | 109 => ⟨S1700000x1, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S128, .f32⟩
  | 121 => ⟨S_, .f32⟩
  | 122 => ⟨S128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S1x128, .f32⟩
  | 6 => ⟨S1x128, .f32⟩
  | 7 => ⟨S1x128, .f32⟩
  | 8 => ⟨S1x128, .f32⟩
  | 9 => ⟨S100000x128, .f32⟩
  | 10 => ⟨S100000x128, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x128, .f32⟩
  | 20 => ⟨S1700000x1, .f32⟩
  | 21 => ⟨S1700000x128, .f32⟩
  | 22 => ⟨S1700000x128, .f32⟩
  | 23 => ⟨S_, .f32⟩
  | 24 => ⟨S100000x128, .f32⟩
  | 25 => ⟨S1700000x1, .i32⟩
  | 26 => ⟨S100000x128, .f32⟩
  | 27 => ⟨S1x128, .f32⟩
  | 28 => ⟨S100000x128, .f32⟩
  | 29 => ⟨S100000x128, .f32⟩
  | 30 => ⟨S_, .f32⟩
  | 31 => ⟨S128, .f32⟩
  | 32 => ⟨S_, .f32⟩
  | 33 => ⟨S128, .f32⟩
  | 34 => ⟨S128, .f32⟩
  | 35 => ⟨S1x128, .f32⟩
  | 36 => ⟨S100000x128, .f32⟩
  | 37 => ⟨S100000x128, .f32⟩
  | 38 => ⟨S100000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S1x128, .f32⟩
  | 46 => ⟨S1x128, .f32⟩
  | 47 => ⟨S1x128, .f32⟩
  | 48 => ⟨S100000x128, .f32⟩
  | 49 => ⟨S_, .f32⟩
  | 50 => ⟨S256x128, .f32⟩
  | 51 => ⟨S100000x1, .i32⟩
  | 52 => ⟨S256x128, .f32⟩
  | 53 => ⟨S_, .f32⟩
  | 54 => ⟨S100000, .f32⟩
  | 55 => ⟨S_, .f32⟩
  | 56 => ⟨S256, .f32⟩
  | 57 => ⟨S100000x1, .i32⟩
  | 58 => ⟨S256, .f32⟩
  | 59 => ⟨S_, .f32⟩
  | 60 => ⟨S256, .f32⟩
  | 61 => ⟨S256, .f32⟩
  | 62 => ⟨S256x1, .f32⟩
  | 63 => ⟨S256x128, .f32⟩
  | 64 => ⟨S256x128, .f32⟩
  | 65 => ⟨S1x1, .f32⟩
  | 66 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S256x128, .f32⟩
  | .local _ .vmem, ⟨40, _⟩ => ⟨S128x1, .f32⟩
  | .local _ .vmem, ⟨41, _⟩ => ⟨S1x1, .f32⟩
  | .local _ .vmem, ⟨42, _⟩ => ⟨S256x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_14 : Ref sig .tc := ⟨.hbm, 100, rfl⟩
abbrev main_v65 : Ref sig .tc := ⟨.hbm, 101, rfl⟩
abbrev main_v66 : Ref sig .tc := ⟨.hbm, 102, rfl⟩
abbrev main_c_15 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_16 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_17 : Ref sig .tc := ⟨.hbm, 119, rfl⟩
abbrev main_v81 : Ref sig .tc := ⟨.hbm, 120, rfl⟩
abbrev main_cst_18 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_19 : Ref sig .tc := ⟨.hbm, 128, rfl⟩
abbrev main_v88 : Ref sig .tc := ⟨.hbm, 129, rfl⟩
abbrev main_cst_20 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_c_21 : Ref sig .tc := ⟨.hbm, 139, rfl⟩
abbrev main_v97 : Ref sig .tc := ⟨.hbm, 140, rfl⟩
abbrev main_v98 : Ref sig .tc := ⟨.hbm, 141, rfl⟩
abbrev main_c_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_23 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_24 : Ref sig .tc := ⟨.hbm, 158, rfl⟩
abbrev main_v113 : Ref sig .tc := ⟨.hbm, 159, rfl⟩
abbrev main_cst_25 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_26 : Ref sig .tc := ⟨.hbm, 167, rfl⟩
abbrev main_v120 : Ref sig .tc := ⟨.hbm, 168, rfl⟩
abbrev main_cst_27 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_28 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_29 : Ref sig .tc := ⟨.hbm, 181, rfl⟩
abbrev main_v131 : Ref sig .tc := ⟨.hbm, 182, rfl⟩
abbrev main_cst_30 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_31 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc6_sem0_0 : DmaSem sig := 39
abbrev cc6_sem1_0 : DmaSem sig := 40
abbrev cc6_sem2_0 : DmaSem sig := 41
abbrev cc6_sem3_0 : DmaSem sig := 42

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S256x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S1_S1x1 : S1.ShapeCasts S1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  inb_S256x1_S256x1_0_0 : ∀ a, (![0, 0] : Fin 2 → Nat) a + S256x1.size a ≤ S256x1.size a
  h_S256x1 : 0 < S256x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x128.size a ≤ S256x128.size a
  hwx6_0 : ∀ i : grid6.Coords, EltTy.bits .f32 = 32 ∨ (Rect.block (s := S256x128) S256x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S256x1.size a ≤ S256x1.size a
  hwx6_3 : ∀ i : grid6.Coords, EltTy.bits .f32 = 32 ∨ (Rect.block (s := S256x1) S256x1.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v61) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v62) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v63) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v80) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v92) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v93) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v94) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v95) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v96) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v112) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v123) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v124) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v125) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v139) S256x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg15) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v140) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v141) S256x1.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S1x1 : Shape := ⟨2, ![1, 1]⟩

abbrev nBuf : Space → Nat
  | .hbm => 239
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S1x1600000, .i32⟩
  | 18 => ⟨S1600000, .i32⟩
  | 19 => ⟨S100000, .i32⟩
  | 20 => ⟨S1700000, .i32⟩
  | 21 => ⟨S1x1600000, .i32⟩
  | 22 => ⟨S1600000, .i32⟩
  | 23 => ⟨S100000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000x128, .f32⟩
  | 70 => ⟨S1700000x1, .f32⟩
  | 71 => ⟨S1700000x128, .f32⟩
  | 72 => ⟨S1700000x128, .f32⟩
  | 73 => ⟨S_, .f32⟩
  | 74 => ⟨S100000x128, .f32⟩
  | 75 => ⟨S1700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S_, .f32⟩
  | 90 => ⟨S128, .f32⟩
  | 91 => ⟨S_, .f32⟩
  | 92 => ⟨S128, .f32⟩
  | 93 => ⟨S128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S100000x128, .f32⟩
  | 112 => ⟨S100000x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000x128, .f32⟩
  | 48 => ⟨S1700000x1, .f32⟩
  | 49 => ⟨S1700000x128, .f32⟩
  | 50 => ⟨S1700000x128, .f32⟩
  | 51 => ⟨S_, .f32⟩
  | 52 => ⟨S100000x128, .f32⟩
  | 53 => ⟨S1700000x1, .i32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S100000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S_, .f32⟩
  | 79 => ⟨S128, .f32⟩
  | 80 => ⟨S128, .f32⟩
  | 81 => ⟨S128, .f32⟩
  | 82 => ⟨S1x128, .f32⟩
  | 83 => ⟨S100000x128, .f32⟩
  | 84 => ⟨S100000x128, .f32⟩
  | 85 => ⟨S1x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S_, .f32⟩
  | 92 => ⟨S256x128, .f32⟩
  | 93 => ⟨S100000x1, .i32⟩
  | 94 => ⟨S256x128, .f32⟩
  | 95 => ⟨S_, .f32⟩
  | 96 => ⟨S100000, .f32⟩
  | 97 => ⟨S_, .f32⟩
  | 98 => ⟨S256, .f32⟩
  | 99 => ⟨S100000x1, .i32⟩
  | 100 => ⟨S256, .f32⟩
  | 101 => ⟨S_, .f32⟩
  | 102 => ⟨S256, .f32⟩
  | 103 => ⟨S256, .f32⟩
  | 104 => ⟨S256x1, .f32⟩
  | 105 => ⟨S256x128, .f32⟩
  | 106 => ⟨S256x128, .f32⟩
  | 107 => ⟨S256x1, .f32⟩
  | 108 => ⟨S1x1, .f32⟩
  | 109 => ⟨S256x1, .f32⟩
  | 110 => ⟨S256x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_12 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_call1_cst : Ref sig .tc := ⟨.hbm, 110, rfl⟩
abbrev main_call1_v0 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_c_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_17 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_cst_19 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_20 : Ref sig .tc := ⟨.hbm, 142, rfl⟩
abbrev main_v99 : Ref sig .tc := ⟨.hbm, 143, rfl⟩
abbrev main_cst_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_cst_22 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_call2_cst : Ref sig .tc := ⟨.hbm, 163, rfl⟩
abbrev main_call2_v0 : Ref sig .tc := ⟨.hbm, 164, rfl⟩
abbrev main_v117 : Ref sig .tc := ⟨.hbm, 165, rfl⟩
abbrev main_v118 : Ref sig .tc := ⟨.hbm, 166, rfl⟩
abbrev main_c_23 : Ref sig .tc := ⟨.hbm, 167, rfl⟩
abbrev main_v119 : Ref sig .tc := ⟨.hbm, 168, rfl⟩
abbrev main_v120 : Ref sig .tc := ⟨.hbm, 169, rfl⟩
abbrev main_c_24 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_cst_25 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_26 : Ref sig .tc := ⟨.hbm, 186, rfl⟩
abbrev main_v135 : Ref sig .tc := ⟨.hbm, 187, rfl⟩
abbrev main_cst_27 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_28 : Ref sig .tc := ⟨.hbm, 195, rfl⟩
abbrev main_v142 : Ref sig .tc := ⟨.hbm, 196, rfl⟩
abbrev main_cst_29 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_cst_30 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_call3_cst : Ref sig .tc := ⟨.hbm, 216, rfl⟩
abbrev main_call3_v0 : Ref sig .tc := ⟨.hbm, 217, rfl⟩
abbrev main_v160 : Ref sig .tc := ⟨.hbm, 218, rfl⟩
abbrev main_cst_31 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_cst_32 : Ref sig .tc := ⟨.hbm, 223, rfl⟩
abbrev main_v164 : Ref sig .tc := ⟨.hbm, 224, rfl⟩
abbrev main_cst_33 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_34 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x1_S256x1_1_0_0_1_n_n_wf : DotDims.WF S256x128 S128x1 S256x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x1_S256x1_1_0_0_1_n_n : DotDims S256x128 S128x1 S256x1 where
  lhsContracting := [1]
  rhsContracting := [0]
  lhsNonContracting := [0]
  rhsNonContracting := [1]
  lhsBatch := []
  rhsBatch := []
  wf := dot_S256x128_S128x1_S256x1_1_0_0_1_n_n_wf

class Facts : Prop extends Facts₀ where

variable [Facts]
-- ==== Proof.KRun.lean ====
/-
  The idealized kernel's run with its result named.

  The program is seven tiled regions among stretches of host lines. Its frame run ends with every unscoped buffer of
  each core at the contents the last segment boundary names (a fold from the launch memory through the host lines
  and the regions' write-backs). The frame claim reads only the argument buffers off that final state; here the
  result buffer is read off it as well, so that the value the program returns is the fold's value at that buffer.
-/
import proofs.«127011_j4758823764123_1_alg».proof.Proof.Gen.KernelIdeal.Frame

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the argument buffers as launched. -/
theorem run_named : θ_run defs (onTc (τ := τ) (main (F := F))) ⟨m, fun _ => 0, ρ⟩ (fun r => ∀ c : Dev nD,
      r.2.mem ((c.tc : Thread nD τ).loc main_v141) = W14 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v141 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.KernelIdeal.KRun

end
-- ==== Proof.Spec.lean ====
/-
  The three whole-array functions that the two programs share, on the extended reals.

  A graph-convolution layer is: project every node's feature row by a weight matrix (`mm`), aggregate the projected
  rows along the edges (host operations, the same in both programs), then normalise each feature column by the
  column's mean and variance, scale, shift and clamp at zero (`bn`). The read-out is one more projection plus a bias
  (`lin`). Each is stated element by element, so that a tiled computation and a whole-array computation can both be
  compared with it index by index.
-/
import Idealize.ShloMosaic.PureOps.Ideal
import Idealize.ShloMosaic.Lib.ValueIdx

noncomputable section

namespace Cert.Spec

open Idealize.ShloMosaic Idealize.ShloMosaic.ValueIdx

/-- The matrix product `x · w`: entry `(r, c)` is the sum over `k` of `x (r, k) * w (k, c)`. -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- One entry of a normalised, scaled, shifted and clamped column: `max ((g * (h - mean)) * rsqrt (var + ε) + be) 0`,
    with `ε` and `0` the two float words the programs carry. -/
def bnEntry (h mean var g be : EReal) : EReal :=
  max ((g * (h - mean)) * Ideal.rsqrt (var + Ideal.ofBits .f32 0x3727C5AC#32) + be) (Ideal.ofBits .f32 0x00000000#32)

/-- Batch normalisation followed by the clamp at zero, the per-column statistics and parameters given as `1 × C` rows:
    entry `(r, c)` depends on `h (r, c)` and on column `c` of the four rows. -/
def bn {R C : Nat} (h : (⟨2, ![R, C]⟩ : Shape).Idx → EReal)
    (mean var g be : (⟨2, ![1, C]⟩ : Shape).Idx → EReal) : (⟨2, ![R, C]⟩ : Shape).Idx → EReal :=
  fun i => bnEntry (h i) (mean (ix2 0 (i 1))) (var (ix2 0 (i 1))) (g (ix2 0 (i 1))) (be (ix2 0 (i 1)))

/-- A `[C]` vector laid out as the `1 × C` row the normalisation takes. -/
def row {C : Nat} (v : (⟨1, ![C]⟩ : Shape).Idx → EReal) : (⟨2, ![1, C]⟩ : Shape).Idx → EReal :=
  fun i => v (ix1 (i 1))

/-- The read-out: `p · w` plus the one bias word, at every entry. -/
def lin {M K N : Nat} (p : (⟨2, ![M, K]⟩ : Shape).Idx → EReal) (w : (⟨2, ![K, N]⟩ : Shape).Idx → EReal)
    (b : (⟨2, ![1, 1]⟩ : Shape).Idx → EReal) : (⟨2, ![M, N]⟩ : Shape).Idx → EReal :=
  fun i => mm p w i + b (ix2 0 0)

end Cert.Spec

end
-- ==== Proof.LibCat.lean ====
/-
  Reading a concatenation of two or of three buffers back from a run of host operations: the result holds the
  operation's function of each operand's contents at that operand's own reference, so that the operands' contents can
  in turn be read back. (The family of operand references is literal; under the operation's binder it is not, and the
  contents of "the k-th operand" could not be rewritten further.)
-/
import Idealize.ShloMosaic.Lib.StableHlo.Run

noncomputable section

namespace Cert.Lib

open Idealize.ShloMosaic Idealize.ShloMosaic.StableHlo Idealize.SL.Sem

variable {τ : Topo} {sig : RefSig} {Val : EltTy → Type}

/-- A two-operand concatenation's result, each operand's contents at its own reference. -/
theorem nary2_result' {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) := by
  rw [nary_result]; congr 1; funext k; fin_cases k <;> rfl

/-- A three-operand concatenation's result, each operand's contents at its own reference. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Contents carried to a typed reference's buffer type and back are the contents. -/
theorem ofBuf_toBuf {T : BufTy} (x : TRef sig T) (v : T.Contents Val) : x.ofBuf (x.toBuf v) = v := by
  obtain ⟨r, h, h2, h3⟩ := x
  subst h
  rfl
/-- Contents carried from a typed reference's buffer type and back are the contents. -/
theorem toBuf_ofBuf {T : BufTy} (x : TRef sig T) (v : x.ref.ty.Contents Val) : x.toBuf (x.ofBuf v) = v := by
  obtain ⟨r, h, h2, h3⟩ := x
  subst h
  rfl

/-- Folding a list of host operations cut in two: first the head part, then the tail part from what it leaves. -/
theorem after_append (l1 l2 : List (HloOp τ sig Val)) (V : Valuation τ sig Val) :
    after (l1 ++ l2) V = after l2 (after l1 V) := by
  induction l1 generalizing V with
  | nil => rfl
  | cons op l ih => exact ih (op.result V)

/-- The same two facts in rewriting form. -/
theorem nary2_result {x a y : Ref sig .tc}
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) :=
  nary2_result' f hxs hy F
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) :=
  nary3_result' f hxs hy F

end Cert.Lib

/-- The results of a literal list of host operations by one simp pass, two- and three-operand concatenations included. -/
macro "after_results_cat" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Cert.Lib.nary2_result', Cert.Lib.nary3_result', Idealize.ShloMosaic.StableHlo.nary4_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- Goes on reading inside a concatenation's operands, one rewrite per operation (the one-pass form does not enter them). -/
macro "finish_results_rw" : tactic =>
  `(tactic| (repeat (first
      | rw [Idealize.ShloMosaic.StableHlo.nullary_result] | rw [Idealize.ShloMosaic.StableHlo.unary_result] | rw [Idealize.ShloMosaic.StableHlo.binary_result]
      | rw [Idealize.ShloMosaic.StableHlo.ternary_result] | rw [Idealize.ShloMosaic.StableHlo.quaternary_result] | rw [Idealize.ShloMosaic.StableHlo.reshape_result]
      | rw [Cert.Lib.nary2_result] | rw [Cert.Lib.nary3_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.quaternary_result_ne]; rotate_left; decide)
      | (rw [Idealize.ShloMosaic.StableHlo.reshape_result_ne]; rotate_left; decide)
      | (rw [Idealize.ShloMosaic.StableHlo.nary_result_ne]; rotate_left; decide))))

end
-- ==== Proof.Stretch0.lean ====
/-
  The host lines before the first region, read relationally.

  From any buffer contents that hold the edge list at the second argument, the lines up to the first region leave the
  source list with self-loops, the destination list with self-loops and the symmetric normalisation coefficients of
  every edge at the values the reference's own stages give them; and they write no argument buffer.
-/
import proofs.«127011_j4758823764123_1_alg».proof.Proof.Gen.KernelIdeal.Launch
import proofs.«127011_j4758823764123_1_alg».proof.Proof.ReadP
import Idealize.ShloMosaic.Lib.StableHlo.Run
import proofs.«127011_j4758823764123_1_alg».proof.Proof.LibCat

noncomputable section

namespace Cert.Stretch

open Idealize.ShloMosaic Idealize.ShloMosaic.StableHlo Idealize.ShloMosaic.TcCoe
open Cert.KernelIdeal Cert.KernelIdeal.Gen Cert.ReferenceIdeal.ReadP

variable {F : FTy → Type} [FloatOps F]

theorem s0_v3 (W : Valuation τ sig (Elt F)) (x1 : (⟨S2x1600000, .i32⟩ : BufTy).Contents (Elt F))
    (h1 : W (Proc.devRef .tc main_arg1) = x1) :
    after hostOps0_2 (after hostOps0_1 (after hostOps0 W)) (Proc.devRef .tc main_v3) = val_main_v3 x1 := by
  after_results_simp
  finish_results_rw
  try simp only [Cert.Lib.ofBuf_toBuf, Cert.Lib.toBuf_ofBuf]
  try rw [h1]
  rfl

theorem s0_v7 (W : Valuation τ sig (Elt F)) (x1 : (⟨S2x1600000, .i32⟩ : BufTy).Contents (Elt F))
    (h1 : W (Proc.devRef .tc main_arg1) = x1) :
    after hostOps0_2 (after hostOps0_1 (after hostOps0 W)) (Proc.devRef .tc main_v7) = val_main_v7 x1 := by
  after_results_simp
  finish_results_rw
  try simp only [Cert.Lib.ofBuf_toBuf, Cert.Lib.toBuf_ofBuf]
  try rw [h1]
  rfl

theorem s0_v31 (W : Valuation τ sig (Elt F)) (x1 : (⟨S2x1600000, .i32⟩ : BufTy).Contents (Elt F))
    (h1 : W (Proc.devRef .tc main_arg1) = x1) :
    after hostOps0_2 (after hostOps0_1 (after hostOps0 W)) (Proc.devRef .tc main_v31) = val_main_v31 x1 := by
  after_results_simp
  finish_results_rw
  try simp only [Cert.Lib.ofBuf_toBuf, Cert.Lib.toBuf_ofBuf]
  try rw [h1]
  rfl

theorem k0_arg0 (W : Valuation τ sig (Elt F)) : after hostOps0_2 (after hostOps0_1 (after hostOps0 W)) (Proc.devRef .tc main_arg0) = W (Proc.devRef .tc main_arg0) := by
  after_results_simp

theorem k0_arg2 (W : Valuation τ sig (Elt F)) : after hostOps0_2 (after hostOps0_1 (after hostOps0 W)) (Proc.devRef .tc main_arg2) = W (Proc.devRef .tc main_arg2) := by
  after_results_simp

theorem k0_arg3 (W : Valuation τ sig (Elt F)) : after hostOps0_2 (after hostOps0_1 (after hostOps0 W)) (Proc.devRef .tc main_arg3) = W (Proc.devRef .tc main_arg3) := by
  after_results_simp

theorem k0_arg4 (W : Valuation τ sig (Elt F)) : after hostOps0_2 (after hostOps0_1 (after hostOps0 W)) (Proc.devRef .tc main_arg4) = W (Proc.devRef .tc main_arg4) := by
  after_results_simp

theorem k0_arg5 (W : Valuation τ sig (Elt F)) : after hostOps0_2 (after hostOps0_1 (after hostOps0 W)) (Proc.devRef .tc main_arg5) = W (Proc.devRef .tc main_arg5) := by
  after_results_simp

theorem k0_arg6 (W : Valuation τ sig (Elt F)) : after hostOps0_2 (after hostOps0_1 (after hostOps0 W)) (Proc.devRef .tc main_arg6) = W (Proc.devRef .tc main_arg6) := by
  after_results_simp

theorem k0_arg7 (W : Valuation τ sig (Elt F)) : after hostOps0_2 (after hostOps0_1 (after hostOps0 W)) (Proc.devRef .tc main_arg7) = W (Proc.devRef .tc main_arg7) := by
  after_results_simp

theorem k0_arg8 (W : Valuation τ sig (Elt F)) : after hostOps0_2 (after hostOps0_1 (after hostOps0 W)) (Proc.devRef .tc main_arg8) = W (Proc.devRef .tc main_arg8) := by
  after_results_simp

theorem k0_arg9 (W : Valuation τ sig (Elt F)) : after hostOps0_2 (after hostOps0_1 (after hostOps0 W)) (Proc.devRef .tc main_arg9) = W (Proc.devRef .tc main_arg9) := by
  after_results_simp

theorem k0_arg10 (W : Valuation τ sig (Elt F)) : after hostOps0_2 (after hostOps0_1 (after hostOps0 W)) (Proc.devRef .tc main_arg10) = W (Proc.devRef .tc main_arg10) := by
  after_results_simp

theorem k0_arg11 (W : Valuation τ sig (Elt F)) : after hostOps0_2 (after hostOps0_1 (after hostOps0 W)) (Proc.devRef .tc main_arg11) = W (Proc.devRef .tc main_arg11) := by
  after_results_simp

theorem k0_arg12 (W : Valuation τ sig (Elt F)) : after hostOps0_2 (after hostOps0_1 (after hostOps0 W)) (Proc.devRef .tc main_arg12) = W (Proc.devRef .tc main_arg12) := by
  after_results_simp

theorem k0_arg13 (W : Valuation τ sig (Elt F)) : after hostOps0_2 (after hostOps0_1 (after hostOps0 W)) (Proc.devRef .tc main_arg13) = W (Proc.devRef .tc main_arg13) := by
  after_results_simp

theorem k0_arg14 (W : Valuation τ sig (Elt F)) : after hostOps0_2 (after hostOps0_1 (after hostOps0 W)) (Proc.devRef .tc main_arg14) = W (Proc.devRef .tc main_arg14) := by
  after_results_simp

theorem k0_arg15 (W : Valuation τ sig (Elt F)) : after hostOps0_2 (after hostOps0_1 (after hostOps0 W)) (Proc.devRef .tc main_arg15) = W (Proc.devRef .tc main_arg15) := by
  after_results_simp

theorem k0_arg16 (W : Valuation τ sig (Elt F)) : after hostOps0_2 (after hostOps0_1 (after hostOps0 W)) (Proc.devRef .tc main_arg16) = W (Proc.devRef .tc main_arg16) := by
  after_results_simp

end Cert.Stretch

end
-- ==== Proof.Stretch1.lean ====
/-
  The host lines between the first projection and the first normalisation, read relationally.

  From any buffer contents that hold the edge lists, the coefficients and the projected features at the reference's
  stages, the lines aggregate the projected rows along the edges, add the bias, and take each column's mean and
  variance: the biased sums and the two statistics are the reference's stages, the statistics and the two
  parameter vectors laid out as 1 × 128 rows for the region that follows. They write none of the buffers still
  needed later.
-/
import proofs.«127011_j4758823764123_1_alg».proof.Proof.Gen.KernelIdeal.Launch
import proofs.«127011_j4758823764123_1_alg».proof.Proof.ReadP
import Idealize.ShloMosaic.Lib.StableHlo.Run
import proofs.«127011_j4758823764123_1_alg».proof.Proof.LibCat

noncomputable section

namespace Cert.Stretch

open Idealize.ShloMosaic Idealize.ShloMosaic.StableHlo Idealize.ShloMosaic.TcCoe
open Cert.KernelIdeal Cert.KernelIdeal.Gen Cert.ReferenceIdeal.ReadP

variable {F : FTy → Type} [FloatOps F]

theorem s1_v48 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h32 : W (Proc.devRef .tc main_v32) = val_main_v32 x0 x3)
    (h4 : W (Proc.devRef .tc main_arg4) = x4) :
    after hostOps1 W (Proc.devRef .tc main_v48) = val_main_v48 x0 x1 x3 x4 := by
  after_results_simp
  try rw [h3]
  try rw [h7]
  try rw [h31]
  try rw [h32]
  try rw [h4]
  rfl

theorem s1_v59 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h32 : W (Proc.devRef .tc main_v32) = val_main_v32 x0 x3)
    (h4 : W (Proc.devRef .tc main_arg4) = x4) :
    after hostOps1 W (Proc.devRef .tc main_v59) = shapeCast S1x128 (val_main_v51 x0 x1 x3 x4) shapeCasts_S128_S1x128 := by
  after_results_simp
  try rw [h3]
  try rw [h7]
  try rw [h31]
  try rw [h32]
  try rw [h4]
  rfl

theorem s1_v60 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h32 : W (Proc.devRef .tc main_v32) = val_main_v32 x0 x3)
    (h4 : W (Proc.devRef .tc main_arg4) = x4) :
    after hostOps1 W (Proc.devRef .tc main_v60) = shapeCast S1x128 (val_main_v58 x0 x1 x3 x4) shapeCasts_S128_S1x128 := by
  after_results_simp
  try rw [h3]
  try rw [h7]
  try rw [h31]
  try rw [h32]
  try rw [h4]
  rfl

theorem s1_v61 (W : Valuation τ sig (Elt F)) (x5 : (⟨S128, .f32⟩ : BufTy).Contents (Elt F))
    (h5 : W (Proc.devRef .tc main_arg5) = x5) :
    after hostOps1 W (Proc.devRef .tc main_v61) = shapeCast S1x128 (x5) shapeCasts_S128_S1x128 := by
  after_results_simp
  try rw [h5]
  rfl

theorem s1_v62 (W : Valuation τ sig (Elt F)) (x6 : (⟨S128, .f32⟩ : BufTy).Contents (Elt F))
    (h6 : W (Proc.devRef .tc main_arg6) = x6) :
    after hostOps1 W (Proc.devRef .tc main_v62) = shapeCast S1x128 (x6) shapeCasts_S128_S1x128 := by
  after_results_simp
  try rw [h6]
  rfl

theorem k1_v3 (W : Valuation τ sig (Elt F)) : after hostOps1 W (Proc.devRef .tc main_v3) = W (Proc.devRef .tc main_v3) := by
  after_results_simp

theorem k1_v7 (W : Valuation τ sig (Elt F)) : after hostOps1 W (Proc.devRef .tc main_v7) = W (Proc.devRef .tc main_v7) := by
  after_results_simp

theorem k1_v31 (W : Valuation τ sig (Elt F)) : after hostOps1 W (Proc.devRef .tc main_v31) = W (Proc.devRef .tc main_v31) := by
  after_results_simp

theorem k1_arg2 (W : Valuation τ sig (Elt F)) : after hostOps1 W (Proc.devRef .tc main_arg2) = W (Proc.devRef .tc main_arg2) := by
  after_results_simp

theorem k1_arg7 (W : Valuation τ sig (Elt F)) : after hostOps1 W (Proc.devRef .tc main_arg7) = W (Proc.devRef .tc main_arg7) := by
  after_results_simp

theorem k1_arg8 (W : Valuation τ sig (Elt F)) : after hostOps1 W (Proc.devRef .tc main_arg8) = W (Proc.devRef .tc main_arg8) := by
  after_results_simp

theorem k1_arg9 (W : Valuation τ sig (Elt F)) : after hostOps1 W (Proc.devRef .tc main_arg9) = W (Proc.devRef .tc main_arg9) := by
  after_results_simp

theorem k1_arg10 (W : Valuation τ sig (Elt F)) : after hostOps1 W (Proc.devRef .tc main_arg10) = W (Proc.devRef .tc main_arg10) := by
  after_results_simp

theorem k1_arg11 (W : Valuation τ sig (Elt F)) : after hostOps1 W (Proc.devRef .tc main_arg11) = W (Proc.devRef .tc main_arg11) := by
  after_results_simp

theorem k1_arg12 (W : Valuation τ sig (Elt F)) : after hostOps1 W (Proc.devRef .tc main_arg12) = W (Proc.devRef .tc main_arg12) := by
  after_results_simp

theorem k1_arg13 (W : Valuation τ sig (Elt F)) : after hostOps1 W (Proc.devRef .tc main_arg13) = W (Proc.devRef .tc main_arg13) := by
  after_results_simp

theorem k1_arg14 (W : Valuation τ sig (Elt F)) : after hostOps1 W (Proc.devRef .tc main_arg14) = W (Proc.devRef .tc main_arg14) := by
  after_results_simp

theorem k1_arg15 (W : Valuation τ sig (Elt F)) : after hostOps1 W (Proc.devRef .tc main_arg15) = W (Proc.devRef .tc main_arg15) := by
  after_results_simp

theorem k1_arg16 (W : Valuation τ sig (Elt F)) : after hostOps1 W (Proc.devRef .tc main_arg16) = W (Proc.devRef .tc main_arg16) := by
  after_results_simp

end Cert.Stretch

end
-- ==== Proof.Stretch3.lean ====
/-
  The host lines between the second projection and the second normalisation, read relationally: the same
  aggregation, bias, mean and variance as in the first layer, on the second layer's buffers.
-/
import proofs.«127011_j4758823764123_1_alg».proof.Proof.Gen.KernelIdeal.Launch
import proofs.«127011_j4758823764123_1_alg».proof.Proof.ReadP
import Idealize.ShloMosaic.Lib.StableHlo.Run
import proofs.«127011_j4758823764123_1_alg».proof.Proof.LibCat

noncomputable section

namespace Cert.Stretch

open Idealize.ShloMosaic Idealize.ShloMosaic.StableHlo Idealize.ShloMosaic.TcCoe
open Cert.KernelIdeal Cert.KernelIdeal.Gen Cert.ReferenceIdeal.ReadP

variable {F : FTy → Type} [FloatOps F]

theorem s3_v80 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h64 : W (Proc.devRef .tc main_v64) = val_main_v75 x0 x1 x3 x4 x5 x6 x7)
    (h8 : W (Proc.devRef .tc main_arg8) = x8) :
    after hostOps3 W (Proc.devRef .tc main_v80) = val_main_v91 x0 x1 x3 x4 x5 x6 x7 x8 := by
  after_results_simp
  try rw [h3]
  try rw [h7]
  try rw [h31]
  try rw [h64]
  try rw [h8]
  rfl

theorem s3_v91 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h64 : W (Proc.devRef .tc main_v64) = val_main_v75 x0 x1 x3 x4 x5 x6 x7)
    (h8 : W (Proc.devRef .tc main_arg8) = x8) :
    after hostOps3 W (Proc.devRef .tc main_v91) = shapeCast S1x128 (val_main_v94 x0 x1 x3 x4 x5 x6 x7 x8) shapeCasts_S128_S1x128 := by
  after_results_simp
  try rw [h3]
  try rw [h7]
  try rw [h31]
  try rw [h64]
  try rw [h8]
  rfl

theorem s3_v92 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h64 : W (Proc.devRef .tc main_v64) = val_main_v75 x0 x1 x3 x4 x5 x6 x7)
    (h8 : W (Proc.devRef .tc main_arg8) = x8) :
    after hostOps3 W (Proc.devRef .tc main_v92) = shapeCast S1x128 (val_main_v101 x0 x1 x3 x4 x5 x6 x7 x8) shapeCasts_S128_S1x128 := by
  after_results_simp
  try rw [h3]
  try rw [h7]
  try rw [h31]
  try rw [h64]
  try rw [h8]
  rfl

theorem s3_v93 (W : Valuation τ sig (Elt F)) (x9 : (⟨S128, .f32⟩ : BufTy).Contents (Elt F))
    (h9 : W (Proc.devRef .tc main_arg9) = x9) :
    after hostOps3 W (Proc.devRef .tc main_v93) = shapeCast S1x128 (x9) shapeCasts_S128_S1x128 := by
  after_results_simp
  try rw [h9]
  rfl

theorem s3_v94 (W : Valuation τ sig (Elt F)) (x10 : (⟨S128, .f32⟩ : BufTy).Contents (Elt F))
    (h10 : W (Proc.devRef .tc main_arg10) = x10) :
    after hostOps3 W (Proc.devRef .tc main_v94) = shapeCast S1x128 (x10) shapeCasts_S128_S1x128 := by
  after_results_simp
  try rw [h10]
  rfl

theorem k3_v3 (W : Valuation τ sig (Elt F)) : after hostOps3 W (Proc.devRef .tc main_v3) = W (Proc.devRef .tc main_v3) := by
  after_results_simp

theorem k3_v7 (W : Valuation τ sig (Elt F)) : after hostOps3 W (Proc.devRef .tc main_v7) = W (Proc.devRef .tc main_v7) := by
  after_results_simp

theorem k3_v31 (W : Valuation τ sig (Elt F)) : after hostOps3 W (Proc.devRef .tc main_v31) = W (Proc.devRef .tc main_v31) := by
  after_results_simp

theorem k3_arg2 (W : Valuation τ sig (Elt F)) : after hostOps3 W (Proc.devRef .tc main_arg2) = W (Proc.devRef .tc main_arg2) := by
  after_results_simp

theorem k3_arg11 (W : Valuation τ sig (Elt F)) : after hostOps3 W (Proc.devRef .tc main_arg11) = W (Proc.devRef .tc main_arg11) := by
  after_results_simp

theorem k3_arg12 (W : Valuation τ sig (Elt F)) : after hostOps3 W (Proc.devRef .tc main_arg12) = W (Proc.devRef .tc main_arg12) := by
  after_results_simp

theorem k3_arg13 (W : Valuation τ sig (Elt F)) : after hostOps3 W (Proc.devRef .tc main_arg13) = W (Proc.devRef .tc main_arg13) := by
  after_results_simp

theorem k3_arg14 (W : Valuation τ sig (Elt F)) : after hostOps3 W (Proc.devRef .tc main_arg14) = W (Proc.devRef .tc main_arg14) := by
  after_results_simp

theorem k3_arg15 (W : Valuation τ sig (Elt F)) : after hostOps3 W (Proc.devRef .tc main_arg15) = W (Proc.devRef .tc main_arg15) := by
  after_results_simp

theorem k3_arg16 (W : Valuation τ sig (Elt F)) : after hostOps3 W (Proc.devRef .tc main_arg16) = W (Proc.devRef .tc main_arg16) := by
  after_results_simp

end Cert.Stretch

end
-- ==== Proof.Stretch5.lean ====
/-
  The host lines between the third projection and the third normalisation, read relationally: the same
  aggregation, bias, mean and variance as in the first layer, on the third layer's buffers.
-/
import proofs.«127011_j4758823764123_1_alg».proof.Proof.Gen.KernelIdeal.Launch
import proofs.«127011_j4758823764123_1_alg».proof.Proof.ReadP
import Idealize.ShloMosaic.Lib.StableHlo.Run
import proofs.«127011_j4758823764123_1_alg».proof.Proof.LibCat

noncomputable section

namespace Cert.Stretch

open Idealize.ShloMosaic Idealize.ShloMosaic.StableHlo Idealize.ShloMosaic.TcCoe
open Cert.KernelIdeal Cert.KernelIdeal.Gen Cert.ReferenceIdeal.ReadP

variable {F : FTy → Type} [FloatOps F]

theorem s5_v112 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h96 : W (Proc.devRef .tc main_v96) = val_main_v118 x0 x1 x3 x4 x5 x6 x7 x8 x9 x10 x11)
    (h12 : W (Proc.devRef .tc main_arg12) = x12) :
    after hostOps5 W (Proc.devRef .tc main_v112) = val_main_v134 x0 x1 x3 x4 x5 x6 x7 x8 x9 x10 x11 x12 := by
  after_results_simp
  try rw [h3]
  try rw [h7]
  try rw [h31]
  try rw [h96]
  try rw [h12]
  rfl

theorem s5_v123 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h96 : W (Proc.devRef .tc main_v96) = val_main_v118 x0 x1 x3 x4 x5 x6 x7 x8 x9 x10 x11)
    (h12 : W (Proc.devRef .tc main_arg12) = x12) :
    after hostOps5 W (Proc.devRef .tc main_v123) = shapeCast S1x128 (val_main_v137 x0 x1 x3 x4 x5 x6 x7 x8 x9 x10 x11 x12) shapeCasts_S128_S1x128 := by
  after_results_simp
  try rw [h3]
  try rw [h7]
  try rw [h31]
  try rw [h96]
  try rw [h12]
  rfl

theorem s5_v124 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h96 : W (Proc.devRef .tc main_v96) = val_main_v118 x0 x1 x3 x4 x5 x6 x7 x8 x9 x10 x11)
    (h12 : W (Proc.devRef .tc main_arg12) = x12) :
    after hostOps5 W (Proc.devRef .tc main_v124) = shapeCast S1x128 (val_main_v144 x0 x1 x3 x4 x5 x6 x7 x8 x9 x10 x11 x12) shapeCasts_S128_S1x128 := by
  after_results_simp
  try rw [h3]
  try rw [h7]
  try rw [h31]
  try rw [h96]
  try rw [h12]
  rfl

theorem s5_v125 (W : Valuation τ sig (Elt F)) (x13 : (⟨S128, .f32⟩ : BufTy).Contents (Elt F))
    (h13 : W (Proc.devRef .tc main_arg13) = x13) :
    after hostOps5 W (Proc.devRef .tc main_v125) = shapeCast S1x128 (x13) shapeCasts_S128_S1x128 := by
  after_results_simp
  try rw [h13]
  rfl

theorem s5_v126 (W : Valuation τ sig (Elt F)) (x14 : (⟨S128, .f32⟩ : BufTy).Contents (Elt F))
    (h14 : W (Proc.devRef .tc main_arg14) = x14) :
    after hostOps5 W (Proc.devRef .tc main_v126) = shapeCast S1x128 (x14) shapeCasts_S128_S1x128 := by
  after_results_simp
  try rw [h14]
  rfl

theorem k5_arg2 (W : Valuation τ sig (Elt F)) : after hostOps5 W (Proc.devRef .tc main_arg2) = W (Proc.devRef .tc main_arg2) := by
  after_results_simp

theorem k5_arg15 (W : Valuation τ sig (Elt F)) : after hostOps5 W (Proc.devRef .tc main_arg15) = W (Proc.devRef .tc main_arg15) := by
  after_results_simp

theorem k5_arg16 (W : Valuation τ sig (Elt F)) : after hostOps5 W (Proc.devRef .tc main_arg16) = W (Proc.devRef .tc main_arg16) := by
  after_results_simp

end Cert.Stretch

end
-- ==== Proof.Stretch6.lean ====
/-
  The host lines between the third normalisation and the read-out, read relationally: the node features are summed
  per graph, the graphs' node counts are taken (at least one), and the quotient is the pooled feature matrix, the
  reference's stage; the read-out's bias is laid out as a 1 × 1 array. They do not write the read-out's weights.
-/
import proofs.«127011_j4758823764123_1_alg».proof.Proof.Gen.KernelIdeal.Launch
import proofs.«127011_j4758823764123_1_alg».proof.Proof.ReadP
import Idealize.ShloMosaic.Lib.StableHlo.Run
import proofs.«127011_j4758823764123_1_alg».proof.Proof.LibCat

noncomputable section

namespace Cert.Stretch

open Idealize.ShloMosaic Idealize.ShloMosaic.StableHlo Idealize.ShloMosaic.TcCoe
open Cert.KernelIdeal Cert.KernelIdeal.Gen Cert.ReferenceIdeal.ReadP

variable {F : FTy → Type} [FloatOps F]

theorem s6_v139 (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F))
    (h127 : W (Proc.devRef .tc main_v127) = val_main_v160 x0 x1 x3 x4 x5 x6 x7 x8 x9 x10 x11 x12 x13 x14)
    (h2 : W (Proc.devRef .tc main_arg2) = x2) :
    after hostOps6 W (Proc.devRef .tc main_v139) = val_main_v172 x0 x1 x2 x3 x4 x5 x6 x7 x8 x9 x10 x11 x12 x13 x14 := by
  after_results_simp
  try rw [h127]
  try rw [h2]
  rfl

theorem s6_v140 (W : Valuation τ sig (Elt F)) (x16 : (⟨S1, .f32⟩ : BufTy).Contents (Elt F))
    (h16 : W (Proc.devRef .tc main_arg16) = x16) :
    after hostOps6 W (Proc.devRef .tc main_v140) = shapeCast S1x1 x16 shapeCasts_S1_S1x1 := by
  after_results_simp
  try rw [h16]
  rfl

theorem k6_arg15 (W : Valuation τ sig (Elt F)) : after hostOps6 W (Proc.devRef .tc main_arg15) = W (Proc.devRef .tc main_arg15) := by
  after_results_simp

end Cert.Stretch

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.RegionMM.lean ====
/-
  The three projection regions, as whole-array functions of what they find.

  Each region tiles the node-feature matrix into blocks of 5000 rows, multiplies a block by the whole 128 × 128 weight
  matrix into a zero accumulator and writes the block back. On the extended reals a change of float format is the
  identity and the product into a zero accumulator is the plain sum over the contracted axis, so block `t` of the
  result is rows `5000 t … 5000 t + 4999` of the matrix product of the two arrays the region was entered with; the
  twenty blocks cover the array.
-/
import proofs.«127011_j4758823764123_1_alg».proof.Proof.Gen.KernelIdeal.Frame
import proofs.«127011_j4758823764123_1_alg».proof.Proof.Spec
import proofs.«127011_j4758823764123_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Region

open Idealize.ShloMosaic Idealize.ShloMosaic.TcCoe
open Cert.KernelIdeal Cert.KernelIdeal.Gen

variable (V : (c : Dev nD) → (b : Ref sig .tc) → Buf (Elt Ideal) ((c : Thread nD τ).loc b))

/-- The zero offsets of a load or store of a whole staging buffer. -/
theorem hc_hz : (![0, 0] : Fin 2 → Nat) = fun _ => 0 := funext fun a => by fin_cases a <;> rfl

/-! ## Region 0 -/

/-- The first projection body's result at an index: with both format changes the identity and a zero accumulator, the
    sum over the contracted axis of the products of row `j 0` of the block and column `j 1` of the weights. -/
theorem hc_pay0_apply (x0 : Vec Ideal S5000x128 .f32) (x1 : Vec Ideal S128x128 .f32) (j : S5000x128.Idx) :
    k0_pay1 x0 x1 j = ∑ k : Fin 128, x0 (ValueIdx.ix2 (j 0) k) * x1 (ValueIdx.ix2 k (j 1)) := by
  unfold k0_pay1
  exact Cert.PlainDot.matmul_zero_apply 5000 128 128 (φ₁ := .bf16) (φ₂ := .bf16) none _ _ j

/-- A block whose row `j 0` is row `i 0` of the features `X`, times weights whose column `j 1` is column `i 1` of `W`,
    is at `j` the product `X · W` at `i`: the contracted axis lies whole inside the block. -/
theorem hc_mm_block0 {X : S100000x128.Idx → EReal} {W : S128x128.Idx → EReal}
    (x0 : Vec Ideal S5000x128 .f32) (x1 : Vec Ideal S128x128 .f32) (j : S5000x128.Idx) (i : S100000x128.Idx)
    (h0 : ∀ k : Fin 128, x0 (ValueIdx.ix2 (j 0) k) = X (ValueIdx.ix2 (i 0) k))
    (h1 : ∀ k : Fin 128, x1 (ValueIdx.ix2 k (j 1)) = W (ValueIdx.ix2 k (i 1))) :
    k0_pay1 x0 x1 j = Cert.Spec.mm X W i := by
  rw [hc_pay0_apply]
  exact Finset.sum_congr rfl fun k _ => by rw [h0 k, h1 k]

/-- The block indices over the grid: at point `t` the features and the result are at block `(t, 0)`, the weights at
    `(0, 0)`. -/
theorem hc_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the matrix product of the two arrays as the region finds them. -/
theorem hc_flushed0 (c : Dev nD) (t : Fin cfg0.N) :
    (dat0 (F := Ideal) V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero hc_hz]
  simp only [View.ld_unit_zero (S := S5000x128) hc_hz, View.ld_unit_zero (S := S128x128) hc_hz]
  obtain ⟨e00, e01, e10, e11, e20, e21⟩ := hc_idx0 t
  funext j
  have hj0 : (j 0).val < 5000 := (j 0).isLt
  have hj1 : (j 1).val < 128 := (j 1).isLt
  refine hc_mm_block0 (X := V c main_arg0) (W := V c main_arg3) (iblk0 V c 0 t) (iblk0 V c 1 t)
    ((cfg0.win 2).xinj (grid0.coords t) j) (((cfg0.win 2).blk t).view.emb j) (fun k => ?_) (fun k => ?_)
  · -- row `j 0` of the features' block is row `5000 t + j 0` of the features, every column
    show V c main_arg0 (((cfg0.win 0).blk t).view.emb _) = _
    refine congrArg (V c main_arg0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · -- the weights' block is the whole weight matrix
    show V c main_arg3 (((cfg0.win 1).blk t).view.emb _) = _
    refine congrArg (V c main_arg3) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the result array is in point `t`'s block iff each coordinate is in the block's range on its axis. -/
theorem hc_mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result is in the block of point `r / 5000`: the twenty blocks cover the array. -/
theorem hc_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show _ < grid0.N; rw [hN]; omega⟩, rfl⟩
  obtain ⟨-, -, -, -, e20, e21⟩ := hc_idx0 t
  refine ⟨t, flush0_2 t, ?_⟩
  rw [hc_mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Region 0's result array is the matrix product of its two input arrays as entered. -/
theorem mm0 (c : Dev nD) : (dat0 (F := Ideal) V c).arrAt 2 cfg0.N = Cert.Spec.mm (V c main_arg0) (V c main_arg3) :=
  (dat0 V c).arrAt_eq_of_cover 2 (Cert.Spec.mm (V c main_arg0) (V c main_arg3)) (fun t _ => hc_flushed0 V c t) hc_cover0

/-! ## Region 2 -/

/-- The second projection body's result at an index: with both format changes the identity and a zero accumulator, the
    sum over the contracted axis of the products of row `j 0` of the block and column `j 1` of the weights. -/
theorem hc_pay2_apply (x0 : Vec Ideal S5000x128 .f32) (x1 : Vec Ideal S128x128 .f32) (j : S5000x128.Idx) :
    k2_pay1 x0 x1 j = ∑ k : Fin 128, x0 (ValueIdx.ix2 (j 0) k) * x1 (ValueIdx.ix2 k (j 1)) := by
  unfold k2_pay1
  rw [shapeCast_self]
  exact Cert.PlainDot.matmul_zero_apply 5000 128 128 (φ₁ := .bf16) (φ₂ := .bf16) none _ _ j

/-- A block whose row `j 0` is row `i 0` of the features `X`, times weights whose column `j 1` is column `i 1` of `W`,
    is at `j` the product `X · W` at `i`: the contracted axis lies whole inside the block. -/
theorem hc_mm_block2 {X : S100000x128.Idx → EReal} {W : S128x128.Idx → EReal}
    (x0 : Vec Ideal S5000x128 .f32) (x1 : Vec Ideal S128x128 .f32) (j : S5000x128.Idx) (i : S100000x128.Idx)
    (h0 : ∀ k : Fin 128, x0 (ValueIdx.ix2 (j 0) k) = X (ValueIdx.ix2 (i 0) k))
    (h1 : ∀ k : Fin 128, x1 (ValueIdx.ix2 k (j 1)) = W (ValueIdx.ix2 k (i 1))) :
    k2_pay1 x0 x1 j = Cert.Spec.mm X W i := by
  rw [hc_pay2_apply]
  exact Finset.sum_congr rfl fun k _ => by rw [h0 k, h1 k]

/-- The block indices over the grid: at point `t` the features and the result are at block `(t, 0)`, the weights at
    `(0, 0)`. -/
theorem hc_idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the matrix product of the two arrays as the region finds them. -/
theorem hc_flushed2 (c : Dev nD) (t : Fin cfg2.N) :
    (dat2 (F := Ideal) V c).flushed 2 t
      = ((cfg2.win 2).blk t).view.read (Elt Ideal) (Cert.Spec.mm (V c main_v63) (V c main_arg7)) := by
  show (cfg2.win 2).cut (grid2.coords t) ((dat2 V c).after 2 t) = _
  rw [after2_2]
  unfold out2_2
  rw [View.canon_unit_zero hc_hz]
  simp only [View.ld_unit_zero (S := S5000x128) hc_hz, View.ld_unit_zero (S := S128x128) hc_hz]
  obtain ⟨e00, e01, e10, e11, e20, e21⟩ := hc_idx2 t
  funext j
  have hj0 : (j 0).val < 5000 := (j 0).isLt
  have hj1 : (j 1).val < 128 := (j 1).isLt
  refine hc_mm_block2 (X := V c main_v63) (W := V c main_arg7) (iblk2 V c 0 t) (iblk2 V c 1 t)
    ((cfg2.win 2).xinj (grid2.coords t) j) (((cfg2.win 2).blk t).view.emb j) (fun k => ?_) (fun k => ?_)
  · -- row `j 0` of the features' block is row `5000 t + j 0` of the features, every column
    show V c main_v63 (((cfg2.win 0).blk t).view.emb _) = _
    refine congrArg (V c main_v63) (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · -- the weights' block is the whole weight matrix
    show V c main_arg7 (((cfg2.win 1).blk t).view.emb _) = _
    refine congrArg (V c main_arg7) (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the result array is in point `t`'s block iff each coordinate is in the block's range on its axis. -/
theorem hc_mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v64).slice (win2_2.rect t)).set ↔ _
  rw [View.set_slice_whole, Rect.mem_set_unit]
  exact Iff.rfl

/-- Row `r` of the result is in the block of point `r / 5000`: the twenty blocks cover the array. -/
theorem hc_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 20 := N_2
  obtain ⟨t, ht⟩ : ∃ t : Fin cfg2.N, t.val = (i 0).val / 5000 :=
    ⟨⟨(i 0).val / 5000, by show _ < grid2.N; rw [hN]; omega⟩, rfl⟩
  obtain ⟨-, -, -, -, e20, e21⟩ := hc_idx2 t
  refine ⟨t, flush2_2 t, ?_⟩
  rw [hc_mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- Region 2's result array is the matrix product of its two input arrays as entered. -/
theorem mm2 (c : Dev nD) : (dat2 (F := Ideal) V c).arrAt 2 cfg2.N = Cert.Spec.mm (V c main_v63) (V c main_arg7) :=
  (dat2 V c).arrAt_eq_of_cover 2 (Cert.Spec.mm (V c main_v63) (V c main_arg7)) (fun t _ => hc_flushed2 V c t) hc_cover2

/-! ## Region 4 -/

/-- The third projection body's result at an index: with both format changes the identity and a zero accumulator, the
    sum over the contracted axis of the products of row `j 0` of the block and column `j 1` of the weights. -/
theorem hc_pay4_apply (x0 : Vec Ideal S5000x128 .f32) (x1 : Vec Ideal S128x128 .f32) (j : S5000x128.Idx) :
    k4_pay1 x0 x1 j = ∑ k : Fin 128, x0 (ValueIdx.ix2 (j 0) k) * x1 (ValueIdx.ix2 k (j 1)) := by
  unfold k4_pay1
  rw [shapeCast_self]
  exact Cert.PlainDot.matmul_zero_apply 5000 128 128 (φ₁ := .bf16) (φ₂ := .bf16) none _ _ j

/-- A block whose row `j 0` is row `i 0` of the features `X`, times weights whose column `j 1` is column `i 1` of `W`,
    is at `j` the product `X · W` at `i`: the contracted axis lies whole inside the block. -/
theorem hc_mm_block4 {X : S100000x128.Idx → EReal} {W : S128x128.Idx → EReal}
    (x0 : Vec Ideal S5000x128 .f32) (x1 : Vec Ideal S128x128 .f32) (j : S5000x128.Idx) (i : S100000x128.Idx)
    (h0 : ∀ k : Fin 128, x0 (ValueIdx.ix2 (j 0) k) = X (ValueIdx.ix2 (i 0) k))
    (h1 : ∀ k : Fin 128, x1 (ValueIdx.ix2 k (j 1)) = W (ValueIdx.ix2 k (i 1))) :
    k4_pay1 x0 x1 j = Cert.Spec.mm X W i := by
  rw [hc_pay4_apply]
  exact Finset.sum_congr rfl fun k _ => by rw [h0 k, h1 k]

/-- The block indices over the grid: at point `t` the features and the result are at block `(t, 0)`, the weights at
    `(0, 0)`. -/
theorem hc_idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point `t` writes back is block `t` of the matrix product of the two arrays as the region finds them. -/
theorem hc_flushed4 (c : Dev nD) (t : Fin cfg4.N) :
    (dat4 (F := Ideal) V c).flushed 2 t
      = ((cfg4.win 2).blk t).view.read (Elt Ideal) (Cert.Spec.mm (V c main_v95) (V c main_arg11)) := by
  show (cfg4.win 2).cut (grid4.coords t) ((dat4 V c).after 2 t) = _
  rw [after4_2]
  unfold out4_2
  rw [View.canon_unit_zero hc_hz]
  simp only [View.ld_unit_zero (S := S5000x128) hc_hz, View.ld_unit_zero (S := S128x128) hc_hz]
  obtain ⟨e00, e01, e10, e11, e20, e21⟩ := hc_idx4 t
  funext j
  have hj0 : (j 0).val < 5000 := (j 0).isLt
  have hj1 : (j 1).val < 128 := (j 1).isLt
  refine hc_mm_block4 (X := V c main_v95) (W := V c main_arg11) (iblk4 V c 0 t) (iblk4 V c 1 t)
    ((cfg4.win 2).xinj (grid4.coords t) j) (((cfg4.win 2).blk t).view.emb j) (fun k => ?_) (fun k => ?_)
  · -- row `j 0` of the features' block is row `5000 t + j 0` of the features, every column
    show V c main_v95 (((cfg4.win 0).blk t).view.emb _) = _
    refine congrArg (V c main_v95) (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · -- the weights' block is the whole weight matrix
    show V c main_arg11 (((cfg4.win 1).blk t).view.emb _) = _
    refine congrArg (V c main_arg11) (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An index of the result array is in point `t`'s block iff each coordinate is in the block's range on its axis. -/
theorem hc_mem_blk4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v96).slice (win4_2.rect t)).set ↔ _
  rw [View.set_slice_whole, Rect.mem_set_unit]
  exact Iff.rfl

/-- Row `r` of the result is in the block of point `r / 5000`: the twenty blocks cover the array. -/
theorem hc_cover4 (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : grid4.N = 20 := N_4
  obtain ⟨t, ht⟩ : ∃ t : Fin cfg4.N, t.val = (i 0).val / 5000 :=
    ⟨⟨(i 0).val / 5000, by show _ < grid4.N; rw [hN]; omega⟩, rfl⟩
  obtain ⟨-, -, -, -, e20, e21⟩ := hc_idx4 t
  refine ⟨t, flush4_2 t, ?_⟩
  rw [hc_mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- Region 4's result array is the matrix product of its two input arrays as entered. -/
theorem mm4 (c : Dev nD) : (dat4 (F := Ideal) V c).arrAt 2 cfg4.N = Cert.Spec.mm (V c main_v95) (V c main_arg11) :=
  (dat4 V c).arrAt_eq_of_cover 2 (Cert.Spec.mm (V c main_v95) (V c main_arg11)) (fun t _ => hc_flushed4 V c t) hc_cover4

end Cert.Region

end
-- ==== Proof.RegionBN.lean ====
/-
  The three normalisation regions, as whole-array functions of what they find.

  Each region tiles the biased feature matrix into blocks of 5000 rows; the four 1 × 128 rows (the columns' means and
  variances, the scales and the shifts) are whole in every block. An entry of a block is
  `max ((g * (h - mean)) * rsqrt (var + ε) + be) 0` of the entry of `h` at that place and of column `c` of the four
  rows, so block `t` of the result is rows `5000 t … 5000 t + 4999` of that function of the arrays the region was
  entered with; the twenty blocks cover the array.
-/
import proofs.«127011_j4758823764123_1_alg».proof.Proof.Gen.KernelIdeal.Frame
import proofs.«127011_j4758823764123_1_alg».proof.Proof.Spec
import proofs.«127011_j4758823764123_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Region

open Idealize.ShloMosaic Idealize.ShloMosaic.TcCoe
open Cert.KernelIdeal Cert.KernelIdeal.Gen

variable (V : (c : Dev nD) → (b : Ref sig .tc) → Buf (Elt Ideal) ((c : Thread nD τ).loc b))

open Idealize.ShloMosaic.ValueIdx

/-- The zero offsets of a whole-block load or store, however spelt. -/
theorem hd_hz : (![0, 0] : Fin 2 → Nat) = fun _ => 0 := funext fun a => by fin_cases a <;> rfl

/-! ## Region 1 -/

/-- Region 1's stored value at entry `(p, q)` of a block: every cast is the identity, a broadcast row is read at its
    column `q`, and the pointwise operations act entry by entry. -/
theorem hd_pay1_apply (x0 : Vec Ideal S5000x128 .f32) (x1 x2 x3 x4 : Vec Ideal S1x128 .f32) (p : Fin 5000) (q : Fin 128) :
    k1_pay1 (F := Ideal) x0 x1 x2 x3 x4 (ix2 p q)
      = Cert.Spec.bnEntry (x0 (ix2 p q)) (x1 (ix2 0 q)) (x2 (ix2 0 q)) (x3 (ix2 0 q)) (x4 (ix2 0 q)) := by
  unfold k1_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- Region 1's block indices at grid point `t`: the feature and result blocks are block `t` along the rows, the four
    rows are whole at every point. -/
theorem hd_idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry `(p, q)` of a block of region 1 is the entry of the whole-array function at row `r`, once the block of
    features holds row `r` at `p` and the four rows hold the arrays' column `q`. -/
theorem hd_point1 (h : S100000x128.Idx → EReal) (mean var g be : S1x128.Idx → EReal)
    (x0 : Vec Ideal S5000x128 .f32) (x1 x2 x3 x4 : Vec Ideal S1x128 .f32)
    (p : Fin 5000) (q : Fin 128) (r : Fin 100000)
    (h0 : x0 (ix2 p q) = h (ix2 r q))
    (h1 : x1 (ix2 0 q) = mean (ix2 0 q)) (h2 : x2 (ix2 0 q) = var (ix2 0 q))
    (h3 : x3 (ix2 0 q) = g (ix2 0 q)) (h4 : x4 (ix2 0 q) = be (ix2 0 q)) :
    k1_pay1 (F := Ideal) x0 x1 x2 x3 x4 (ix2 p q) = Cert.Spec.bn h mean var g be (ix2 r q) := by
  rw [hd_pay1_apply, h0, h1, h2, h3, h4]; rfl

/-- What grid point `t` of region 1 writes back is block `t` of the whole-array function of the entry contents: row
    `p` of the block is row `5000 t + p` of the array. -/
theorem hd_flushed1 (c : Dev nD) (t : Fin cfg1.N) :
    (dat1 (F := Ideal) V c).flushed 5 t = ((cfg1.win 5).blk t).view.read (Elt Ideal)
      (Cert.Spec.bn (V c main_v48) (V c main_v59) (V c main_v60) (V c main_v61) (V c main_v62)) := by
  show (cfg1.win 5).cut (grid1.coords t) ((dat1 V c).after 5 t) = _
  rw [after1_5]
  unfold out1_5
  rw [View.canon_unit_zero hd_hz]
  simp only [View.ld_unit_zero (S := S5000x128) hd_hz, View.ld_unit_zero (S := S1x128) hd_hz]
  funext j
  obtain ⟨e00, e01, e10, e11, e20, e21, e30, e31, e40, e41, e50, e51⟩ := hd_idx1 t
  have hj0 : (j 0).val < 5000 := (j 0).isLt
  have hj1 : (j 1).val < 128 := (j 1).isLt
  have ht : t.val < grid1.N := t.isLt
  rw [N_1] at ht
  have hr : t.val * 5000 + (j 0).val < 100000 := by omega
  have hx : (cfg1.win 5).xinj (grid1.coords t) j
      = ix2 (⟨(j 0).val, hj0⟩ : Fin 5000) (⟨(j 1).val, hj1⟩ : Fin 128) := by
    funext a
    match a with
    | ⟨0, _⟩ => rfl
    | ⟨1, _⟩ => rfl
  have he : ((cfg1.win 5).blk t).view.emb j
      = ix2 (⟨t.val * 5000 + (j 0).val, hr⟩ : Fin 100000) (⟨(j 1).val, hj1⟩ : Fin 128) := by
    funext a; apply Fin.ext
    match a with
    | ⟨0, _⟩ => show win1_5.index t (0 : Fin 2) * 5000 + 1 * (j 0).val = t.val * 5000 + (j 0).val; omega
    | ⟨1, _⟩ => show win1_5.index t (1 : Fin 2) * 128 + 1 * (j 1).val = (j 1).val; omega
  refine (congrArg (k1_pay1 (F := Ideal) (iblk1 V c 0 t) (iblk1 V c 1 t) (iblk1 V c 2 t) (iblk1 V c 3 t) (iblk1 V c 4 t)) hx).trans ?_
  refine Eq.trans ?_ (congrArg (Cert.Spec.bn (V c main_v48) (V c main_v59) (V c main_v60) (V c main_v61) (V c main_v62)) he).symm
  refine hd_point1 _ _ _ _ _ _ _ _ _ _ _ _ _ ?_ ?_ ?_ ?_ ?_
  · show V c main_v48 (((cfg1.win 0).blk t).view.emb (ix2 (⟨(j 0).val, hj0⟩ : Fin 5000) (⟨(j 1).val, hj1⟩ : Fin 128))) = _
    refine congrArg _ (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 128 + 1 * (j 1).val = (j 1).val; omega
  · show V c main_v59 (((cfg1.win 1).blk t).view.emb (ix2 (0 : Fin 1) (⟨(j 1).val, hj1⟩ : Fin 128))) = _
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = (j 1).val; omega
  · show V c main_v60 (((cfg1.win 2).blk t).view.emb (ix2 (0 : Fin 1) (⟨(j 1).val, hj1⟩ : Fin 128))) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = (j 1).val; omega
  · show V c main_v61 (((cfg1.win 3).blk t).view.emb (ix2 (0 : Fin 1) (⟨(j 1).val, hj1⟩ : Fin 128))) = _
    refine congrArg _ (funext fun a => Fin.ext ?_)
    match a with
    | ⟨0, _⟩ => show win1_3.index t (0 : Fin 2) * 1 + 1 * 0 = 0; omega
    | ⟨1, _⟩ => show win1_3.index t (1 : Fin 2) * 128 + 1 * (j 1).val = (j 1).val; omega
  · show V c main_v62 (((cfg1.win 4).blk t).view.emb (ix2 (0 : Fin 1) (⟨(j 1).val, hj1⟩ : Fin 128))) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * (j 1).val = (j 1).val; omega

/-- An index is in point `t`'s result block of region 1 iff each coordinate is in the block's range on its axis. -/
theorem hd_mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v63).slice (win1_5.rect t)).set ↔ _
  rw [View.set_slice_whole, Rect.mem_set_unit]
  exact Iff.rfl

/-- The twenty result blocks of region 1 cover the array: row `r` is in block `r / 5000`. -/
theorem hd_cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : grid1.N = 20 := N_1
  have hlt : (i 0).val / 5000 < grid1.N := by omega
  obtain ⟨_, _, _, _, _, _, _, _, _, _, e50, e51⟩ := hd_idx1 ⟨(i 0).val / 5000, hlt⟩
  have tv : (⟨(i 0).val / 5000, hlt⟩ : Fin cfg1.N).val = (i 0).val / 5000 := rfl
  refine ⟨⟨(i 0).val / 5000, hlt⟩, flush1_5 _, ?_⟩
  rw [hd_mem_blk1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    omega

/-- Region 1's result array is the normalised, scaled, shifted and clamped input array. -/
theorem bn1 (c : Dev nD) : (dat1 (F := Ideal) V c).arrAt 5 cfg1.N
    = Cert.Spec.bn (V c main_v48) (V c main_v59) (V c main_v60) (V c main_v61) (V c main_v62) :=
  (dat1 (F := Ideal) V c).arrAt_eq_of_cover 5 _ (fun t _ => hd_flushed1 V c t) hd_cover1

/-! ## Region 3 -/

/-- Region 3's stored value at entry `(p, q)` of a block: every cast is the identity, a broadcast row is read at its
    column `q`, and the pointwise operations act entry by entry. -/
theorem hd_pay3_apply (x0 : Vec Ideal S5000x128 .f32) (x1 x2 x3 x4 : Vec Ideal S1x128 .f32) (p : Fin 5000) (q : Fin 128) :
    k3_pay1 (F := Ideal) x0 x1 x2 x3 x4 (ix2 p q)
      = Cert.Spec.bnEntry (x0 (ix2 p q)) (x1 (ix2 0 q)) (x2 (ix2 0 q)) (x3 (ix2 0 q)) (x4 (ix2 0 q)) := by
  unfold k3_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- Region 3's block indices at grid point `t`: the feature and result blocks are block `t` along the rows, the four
    rows are whole at every point. -/
theorem hd_idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Entry `(p, q)` of a block of region 3 is the entry of the whole-array function at row `r`, once the block of
    features holds row `r` at `p` and the four rows hold the arrays' column `q`. -/
theorem hd_point3 (h : S100000x128.Idx → EReal) (mean var g be : S1x128.Idx → EReal)
    (x0 : Vec Ideal S5000x128 .f32) (x1 x2 x3 x4 : Vec Ideal S1x128 .f32)
    (p : Fin 5000) (q : Fin 128) (r : Fin 100000)
    (h0 : x0 (ix2 p q) = h (ix2 r q))
    (h1 : x1 (ix2 0 q) = mean (ix2 0 q)) (h2 : x2 (ix2 0 q) = var (ix2 0 q))
    (h3 : x3 (ix2 0 q) = g (ix2 0 q)) (h4 : x4 (ix2 0 q) = be (ix2 0 q)) :
    k3_pay1 (F := Ideal) x0 x1 x2 x3 x4 (ix2 p q) = Cert.Spec.bn h mean var g be (ix2 r q) := by
  rw [hd_pay3_apply, h0, h1, h2, h3, h4]; rfl

/-- What grid point `t` of region 3 writes back is block `t` of the whole-array function of the entry contents: row
    `p` of the block is row `5000 t + p` of the array. -/
theorem hd_flushed3 (c : Dev nD) (t : Fin cfg3.N) :
    (dat3 (F := Ideal) V c).flushed 5 t = ((cfg3.win 5).blk t).view.read (Elt Ideal)
      (Cert.Spec.bn (V c main_v80) (V c main_v91) (V c main_v92) (V c main_v93) (V c main_v94)) := by
  show (cfg3.win 5).cut (grid3.coords t) ((dat3 V c).after 5 t) = _
  rw [after3_5]
  unfold out3_5
  rw [View.canon_unit_zero hd_hz]
  simp only [View.ld_unit_zero (S := S5000x128) hd_hz, View.ld_unit_zero (S := S1x128) hd_hz]
  funext j
  obtain ⟨e00, e01, e10, e11, e20, e21, e30, e31, e40, e41, e50, e51⟩ := hd_idx3 t
  have hj0 : (j 0).val < 5000 := (j 0).isLt
  have hj1 : (j 1).val < 128 := (j 1).isLt
  have ht : t.val < grid3.N := t.isLt
  rw [N_3] at ht
  have hr : t.val * 5000 + (j 0).val < 100000 := by omega
  have hx : (cfg3.win 5).xinj (grid3.coords t) j
      = ix2 (⟨(j 0).val, hj0⟩ : Fin 5000) (⟨(j 1).val, hj1⟩ : Fin 128) := by
    funext a
    match a with
    | ⟨0, _⟩ => rfl
    | ⟨1, _⟩ => rfl
  have he : ((cfg3.win 5).blk t).view.emb j
      = ix2 (⟨t.val * 5000 + (j 0).val, hr⟩ : Fin 100000) (⟨(j 1).val, hj1⟩ : Fin 128) := by
    funext a; apply Fin.ext
    match a with
    | ⟨0, _⟩ => show win3_5.index t (0 : Fin 2) * 5000 + 1 * (j 0).val = t.val * 5000 + (j 0).val; omega
    | ⟨1, _⟩ => show win3_5.index t (1 : Fin 2) * 128 + 1 * (j 1).val = (j 1).val; omega
  refine (congrArg (k3_pay1 (F := Ideal) (iblk3 V c 0 t) (iblk3 V c 1 t) (iblk3 V c 2 t) (iblk3 V c 3 t) (iblk3 V c 4 t)) hx).trans ?_
  refine Eq.trans ?_ (congrArg (Cert.Spec.bn (V c main_v80) (V c main_v91) (V c main_v92) (V c main_v93) (V c main_v94)) he).symm
  refine hd_point3 _ _ _ _ _ _ _ _ _ _ _ _ _ ?_ ?_ ?_ ?_ ?_
  · show V c main_v80 (((cfg3.win 0).blk t).view.emb (ix2 (⟨(j 0).val, hj0⟩ : Fin 5000) (⟨(j 1).val, hj1⟩ : Fin 128))) = _
    refine congrArg _ (funext fun a => Fin.ext ?_)
    match a with
    | ⟨0, _⟩ => show win3_0.index t (0 : Fin 2) * 5000 + 1 * (j 0).val = t.val * 5000 + (j 0).val; omega
    | ⟨1, _⟩ => show win3_0.index t (1 : Fin 2) * 128 + 1 * (j 1).val = (j 1).val; omega
  · show V c main_v91 (((cfg3.win 1).blk t).view.emb (ix2 (0 : Fin 1) (⟨(j 1).val, hj1⟩ : Fin 128))) = _
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * (j 1).val = (j 1).val; omega
  · show V c main_v92 (((cfg3.win 2).blk t).view.emb (ix2 (0 : Fin 1) (⟨(j 1).val, hj1⟩ : Fin 128))) = _
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = (j 1).val; omega
  · show V c main_v93 (((cfg3.win 3).blk t).view.emb (ix2 (0 : Fin 1) (⟨(j 1).val, hj1⟩ : Fin 128))) = _
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * (j 1).val = (j 1).val; omega
  · show V c main_v94 (((cfg3.win 4).blk t).view.emb (ix2 (0 : Fin 1) (⟨(j 1).val, hj1⟩ : Fin 128))) = _
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * (j 1).val = (j 1).val; omega

/-- An index is in point `t`'s result block of region 3 iff each coordinate is in the block's range on its axis. -/
theorem hd_mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v95).slice (win3_5.rect t)).set ↔ _
  rw [View.set_slice_whole, Rect.mem_set_unit]
  exact Iff.rfl

/-- The twenty result blocks of region 3 cover the array: row `r` is in block `r / 5000`. -/
theorem hd_cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : grid3.N = 20 := N_3
  have hlt : (i 0).val / 5000 < grid3.N := by omega
  obtain ⟨_, _, _, _, _, _, _, _, _, _, e50, e51⟩ := hd_idx3 ⟨(i 0).val / 5000, hlt⟩
  have tv : (⟨(i 0).val / 5000, hlt⟩ : Fin cfg3.N).val = (i 0).val / 5000 := rfl
  refine ⟨⟨(i 0).val / 5000, hlt⟩, flush3_5 _, ?_⟩
  rw [hd_mem_blk3]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    omega

/-- Region 3's result array is the normalised, scaled, shifted and clamped input array. -/
theorem bn3 (c : Dev nD) : (dat3 (F := Ideal) V c).arrAt 5 cfg3.N
    = Cert.Spec.bn (V c main_v80) (V c main_v91) (V c main_v92) (V c main_v93) (V c main_v94) :=
  (dat3 (F := Ideal) V c).arrAt_eq_of_cover 5 _ (fun t _ => hd_flushed3 V c t) hd_cover3

/-! ## Region 5 -/

/-- Region 5's stored value at entry `(p, q)` of a block: every cast is the identity, a broadcast row is read at its
    column `q`, and the pointwise operations act entry by entry. -/
theorem hd_pay5_apply (x0 : Vec Ideal S5000x128 .f32) (x1 x2 x3 x4 : Vec Ideal S1x128 .f32) (p : Fin 5000) (q : Fin 128) :
    k5_pay1 (F := Ideal) x0 x1 x2 x3 x4 (ix2 p q)
      = Cert.Spec.bnEntry (x0 (ix2 p q)) (x1 (ix2 0 q)) (x2 (ix2 0 q)) (x3 (ix2 0 q)) (x4 (ix2 0 q)) := by
  unfold k5_pay1
  simp only [shapeCast_self]
  rw [maximumf_apply, addf_apply, mulf_apply, mulf_apply, subf_apply]
  rw [broadcastTo_1b_ab_apply, broadcastTo_1b_ab_apply, broadcastTo_1b_ab_apply, broadcastTo_1b_ab_apply]
  rfl

/-- Region 5's block indices at grid point `t`: the feature and result blocks are block `t` along the rows, the four
    rows are whole at every point. -/
theorem hd_idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry `(p, q)` of a block of region 5 is the entry of the whole-array function at row `r`, once the block of
    features holds row `r` at `p` and the four rows hold the arrays' column `q`. -/
theorem hd_point5 (h : S100000x128.Idx → EReal) (mean var g be : S1x128.Idx → EReal)
    (x0 : Vec Ideal S5000x128 .f32) (x1 x2 x3 x4 : Vec Ideal S1x128 .f32)
    (p : Fin 5000) (q : Fin 128) (r : Fin 100000)
    (h0 : x0 (ix2 p q) = h (ix2 r q))
    (h1 : x1 (ix2 0 q) = mean (ix2 0 q)) (h2 : x2 (ix2 0 q) = var (ix2 0 q))
    (h3 : x3 (ix2 0 q) = g (ix2 0 q)) (h4 : x4 (ix2 0 q) = be (ix2 0 q)) :
    k5_pay1 (F := Ideal) x0 x1 x2 x3 x4 (ix2 p q) = Cert.Spec.bn h mean var g be (ix2 r q) := by
  rw [hd_pay5_apply, h0, h1, h2, h3, h4]; rfl

/-- What grid point `t` of region 5 writes back is block `t` of the whole-array function of the entry contents: row
    `p` of the block is row `5000 t + p` of the array. -/
theorem hd_flushed5 (c : Dev nD) (t : Fin cfg5.N) :
    (dat5 (F := Ideal) V c).flushed 5 t = ((cfg5.win 5).blk t).view.read (Elt Ideal)
      (Cert.Spec.bn (V c main_v112) (V c main_v123) (V c main_v124) (V c main_v125) (V c main_v126)) := by
  show (cfg5.win 5).cut (grid5.coords t) ((dat5 V c).after 5 t) = _
  rw [after5_5]
  unfold out5_5
  rw [View.canon_unit_zero hd_hz]
  simp only [View.ld_unit_zero (S := S5000x128) hd_hz, View.ld_unit_zero (S := S1x128) hd_hz]
  funext j
  obtain ⟨e00, e01, e10, e11, e20, e21, e30, e31, e40, e41, e50, e51⟩ := hd_idx5 t
  have hj0 : (j 0).val < 5000 := (j 0).isLt
  have hj1 : (j 1).val < 128 := (j 1).isLt
  have ht : t.val < grid5.N := t.isLt
  rw [N_5] at ht
  have hr : t.val * 5000 + (j 0).val < 100000 := by omega
  have hx : (cfg5.win 5).xinj (grid5.coords t) j
      = ix2 (⟨(j 0).val, hj0⟩ : Fin 5000) (⟨(j 1).val, hj1⟩ : Fin 128) := by
    funext a
    match a with
    | ⟨0, _⟩ => rfl
    | ⟨1, _⟩ => rfl
  have he : ((cfg5.win 5).blk t).view.emb j
      = ix2 (⟨t.val * 5000 + (j 0).val, hr⟩ : Fin 100000) (⟨(j 1).val, hj1⟩ : Fin 128) := by
    funext a; apply Fin.ext
    match a with
    | ⟨0, _⟩ => show win5_5.index t (0 : Fin 2) * 5000 + 1 * (j 0).val = t.val * 5000 + (j 0).val; omega
    | ⟨1, _⟩ => show win5_5.index t (1 : Fin 2) * 128 + 1 * (j 1).val = (j 1).val; omega
  refine (congrArg (k5_pay1 (F := Ideal) (iblk5 V c 0 t) (iblk5 V c 1 t) (iblk5 V c 2 t) (iblk5 V c 3 t) (iblk5 V c 4 t)) hx).trans ?_
  refine Eq.trans ?_ (congrArg (Cert.Spec.bn (V c main_v112) (V c main_v123) (V c main_v124) (V c main_v125) (V c main_v126)) he).symm
  refine hd_point5 _ _ _ _ _ _ _ _ _ _ _ _ _ ?_ ?_ ?_ ?_ ?_
  · show V c main_v112 (((cfg5.win 0).blk t).view.emb (ix2 (⟨(j 0).val, hj0⟩ : Fin 5000) (⟨(j 1).val, hj1⟩ : Fin 128))) = _
    refine congrArg _ (funext fun a => Fin.ext ?_)
    match a with
    | ⟨0, _⟩ => show win5_0.index t (0 : Fin 2) * 5000 + 1 * (j 0).val = t.val * 5000 + (j 0).val; omega
    | ⟨1, _⟩ => show win5_0.index t (1 : Fin 2) * 128 + 1 * (j 1).val = (j 1).val; omega
  · show V c main_v123 (((cfg5.win 1).blk t).view.emb (ix2 (0 : Fin 1) (⟨(j 1).val, hj1⟩ : Fin 128))) = _
    refine congrArg _ (funext fun a => Fin.ext ?_)
    match a with
    | ⟨0, _⟩ => show win5_1.index t (0 : Fin 2) * 1 + 1 * 0 = 0; omega
    | ⟨1, _⟩ => show win5_1.index t (1 : Fin 2) * 128 + 1 * (j 1).val = (j 1).val; omega
  · show V c main_v124 (((cfg5.win 2).blk t).view.emb (ix2 (0 : Fin 1) (⟨(j 1).val, hj1⟩ : Fin 128))) = _
    refine congrArg _ (funext fun a => Fin.ext ?_)
    match a with
    | ⟨0, _⟩ => show win5_2.index t (0 : Fin 2) * 1 + 1 * 0 = 0; omega
    | ⟨1, _⟩ => show win5_2.index t (1 : Fin 2) * 128 + 1 * (j 1).val = (j 1).val; omega
  · show V c main_v125 (((cfg5.win 3).blk t).view.emb (ix2 (0 : Fin 1) (⟨(j 1).val, hj1⟩ : Fin 128))) = _
    refine congrArg _ (funext fun a => Fin.ext ?_)
    match a with
    | ⟨0, _⟩ => show win5_3.index t (0 : Fin 2) * 1 + 1 * 0 = 0; omega
    | ⟨1, _⟩ => show win5_3.index t (1 : Fin 2) * 128 + 1 * (j 1).val = (j 1).val; omega
  · show V c main_v126 (((cfg5.win 4).blk t).view.emb (ix2 (0 : Fin 1) (⟨(j 1).val, hj1⟩ : Fin 128))) = _
    refine congrArg _ (funext fun a => Fin.ext ?_)
    match a with
    | ⟨0, _⟩ => show win5_4.index t (0 : Fin 2) * 1 + 1 * 0 = 0; omega
    | ⟨1, _⟩ => show win5_4.index t (1 : Fin 2) * 128 + 1 * (j 1).val = (j 1).val; omega

/-- An index is in point `t`'s result block of region 5 iff each coordinate is in the block's range on its axis. -/
theorem hd_mem_blk5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v127).slice (win5_5.rect t)).set ↔ _
  rw [View.set_slice_whole, Rect.mem_set_unit]
  exact Iff.rfl

/-- The twenty result blocks of region 5 cover the array: row `r` is in block `r / 5000`. -/
theorem hd_cover5 (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have hN : grid5.N = 20 := N_5
  have hlt : (i 0).val / 5000 < grid5.N := by omega
  obtain ⟨_, _, _, _, _, _, _, _, _, _, e50, e51⟩ := hd_idx5 ⟨(i 0).val / 5000, hlt⟩
  have tv : (⟨(i 0).val / 5000, hlt⟩ : Fin cfg5.N).val = (i 0).val / 5000 := rfl
  refine ⟨⟨(i 0).val / 5000, hlt⟩, flush5_5 _, ?_⟩
  rw [hd_mem_blk5]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    omega
  | ⟨1, _⟩ =>
    show win5_5.index ⟨(i 0).val / 5000, hlt⟩ (1 : Fin 2) * 128 ≤ (i 1).val
      ∧ (i 1).val < win5_5.index ⟨(i 0).val / 5000, hlt⟩ (1 : Fin 2) * 128 + 128
    omega

/-- Region 5's result array is the normalised, scaled, shifted and clamped input array. -/
theorem bn5 (c : Dev nD) : (dat5 (F := Ideal) V c).arrAt 5 cfg5.N
    = Cert.Spec.bn (V c main_v112) (V c main_v123) (V c main_v124) (V c main_v125) (V c main_v126) :=
  (dat5 (F := Ideal) V c).arrAt_eq_of_cover 5 _ (fun t _ => hd_flushed5 V c t) hd_cover5

end Cert.Region

end
-- ==== Proof.RegionLin.lean ====
/-
  The read-out region, as a whole-array function of what it finds.

  One grid point: the block is the whole 256 × 128 pooled matrix, the whole 128 × 1 weight column and the 1 × 1 bias.
  The body multiplies into a zero accumulator and adds the bias broadcast down the rows, so the result array is the
  matrix product plus the one bias word at every entry.
-/
import proofs.«127011_j4758823764123_1_alg».proof.Proof.Gen.KernelIdeal.Frame
import proofs.«127011_j4758823764123_1_alg».proof.Proof.Spec
import proofs.«127011_j4758823764123_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Region

open Idealize.ShloMosaic Idealize.ShloMosaic.TcCoe
open Cert.KernelIdeal Cert.KernelIdeal.Gen

variable (V : (c : Dev nD) → (b : Ref sig .tc) → Buf (Elt Ideal) ((c : Thread nD τ).loc b))

/-- The zero offsets of a load or store of a whole staging buffer. -/
theorem hc_lin_hz : (![0, 0] : Fin 2 → Nat) = fun _ => 0 := funext fun a => by fin_cases a <;> rfl

/-- The read-out body's result at an index: with the format changes and the same-shape casts the identity and a zero
    accumulator, the sum over the contracted axis plus the one bias word, which the broadcast puts at every entry. -/
theorem hc_pay6_apply (x0 : Vec Ideal S256x128 .f32) (x1 : Vec Ideal S128x1 .f32) (x2 : Vec Ideal S1x1 .f32)
    (j : S256x1.Idx) :
    k6_pay1 x0 x1 x2 j
      = (∑ k : Fin 128, x0 (ValueIdx.ix2 (j 0) k) * x1 (ValueIdx.ix2 k (j 1))) + x2 (ValueIdx.ix2 0 0) := by
  unfold k6_pay1
  rw [shapeCast_self, shapeCast_self]
  refine (ValueIdx.addf_apply _ _ j).trans ?_
  refine congrArg₂ (· + ·)
    (Cert.PlainDot.matmul_zero_apply 256 128 1 (φ₁ := .bf16) (φ₂ := .bf16) none _ _ j) ?_
  refine broadcastTo_apply x2 _ j (ValueIdx.ix2 0 0) fun a => ?_
  match a with
  | ⟨0, _⟩ => rfl
  | ⟨1, _⟩ => rfl

/-- Blocks that agree with the arrays `P`, `W`, `B` on row `j 0`, on column `j 1` and at the one bias word give at `j`
    the read-out `P · W + B` at `i`. -/
theorem hc_lin_block {P : S256x128.Idx → EReal} {W : S128x1.Idx → EReal} {B : S1x1.Idx → EReal}
    (x0 : Vec Ideal S256x128 .f32) (x1 : Vec Ideal S128x1 .f32) (x2 : Vec Ideal S1x1 .f32)
    (j : S256x1.Idx) (i : S256x1.Idx)
    (h0 : ∀ k : Fin 128, x0 (ValueIdx.ix2 (j 0) k) = P (ValueIdx.ix2 (i 0) k))
    (h1 : ∀ k : Fin 128, x1 (ValueIdx.ix2 k (j 1)) = W (ValueIdx.ix2 k (i 1)))
    (h2 : x2 (ValueIdx.ix2 0 0) = B (ValueIdx.ix2 0 0)) :
    k6_pay1 x0 x1 x2 j = Cert.Spec.lin P W B i := by
  rw [hc_pay6_apply, h2]
  exact congrArg (· + B (ValueIdx.ix2 0 0)) (Finset.sum_congr rfl fun k _ => by rw [h0 k, h1 k])

/-- The block indices over the one-point grid: every window is at block `(0, 0)`. -/
theorem hc_idx6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- What the point writes back is its block, the whole, of the read-out of the three arrays as the region finds them. -/
theorem hc_flushed6 (c : Dev nD) (t : Fin cfg6.N) :
    (dat6 (F := Ideal) V c).flushed 3 t
      = ((cfg6.win 3).blk t).view.read (Elt Ideal)
          (Cert.Spec.lin (V c main_v139) (V c main_arg15) (V c main_v140)) := by
  show (cfg6.win 3).cut (grid6.coords t) ((dat6 V c).after 3 t) = _
  rw [after6_3]
  unfold out6_3
  rw [View.canon_unit_zero hc_lin_hz]
  simp only [View.ld_unit_zero (S := S256x128) hc_lin_hz, View.ld_unit_zero (S := S128x1) hc_lin_hz,
    View.ld_unit_zero (S := S1x1) hc_lin_hz]
  obtain ⟨e00, e01, e10, e11, e20, e21, e30, e31⟩ := hc_idx6 t
  funext j
  have hj0 : (j 0).val < 256 := (j 0).isLt
  have hj1 : (j 1).val < 1 := (j 1).isLt
  refine hc_lin_block (P := V c main_v139) (W := V c main_arg15) (B := V c main_v140)
    (iblk6 V c 0 t) (iblk6 V c 1 t) (iblk6 V c 2 t)
    ((cfg6.win 3).xinj (grid6.coords t) j) (((cfg6.win 3).blk t).view.emb j) (fun k => ?_) (fun k => ?_) ?_
  · -- the pooled matrix's block is the whole matrix
    show V c main_v139 (((cfg6.win 0).blk t).view.emb _) = _
    refine congrArg (V c main_v139) (funext fun a => Fin.ext ?_)
    match a with
    | ⟨0, _⟩ =>
      show win6_0.index t (0 : Fin 2) * 256 + 1 * (j 0).val = win6_3.index t (0 : Fin 2) * 256 + 1 * (j 0).val
      omega
    | ⟨1, _⟩ =>
      show win6_0.index t (1 : Fin 2) * 128 + 1 * k.val = k.val
      omega
  · -- the weights' block is the whole weight column
    show V c main_arg15 (((cfg6.win 1).blk t).view.emb _) = _
    refine congrArg (V c main_arg15) (funext fun a => Fin.ext ?_)
    match a with
    | ⟨0, _⟩ =>
      show win6_1.index t (0 : Fin 2) * 128 + 1 * k.val = k.val
      omega
    | ⟨1, _⟩ =>
      show win6_1.index t (1 : Fin 2) * 1 + 1 * (j 1).val = win6_3.index t (1 : Fin 2) * 1 + 1 * (j 1).val
      omega
  · -- the bias's block is the one bias word
    show V c main_v140 (((cfg6.win 2).blk t).view.emb _) = _
    refine congrArg (V c main_v140) (funext fun a => Fin.ext ?_)
    match a with
    | ⟨0, _⟩ =>
      show win6_2.index t (0 : Fin 2) * 1 + 1 * 0 = 0
      omega
    | ⟨1, _⟩ =>
      show win6_2.index t (1 : Fin 2) * 1 + 1 * 0 = 0
      omega

/-- An index of the result array is in point `t`'s block iff each coordinate is in the block's range on its axis. -/
theorem hc_mem_blk6 (t : Fin cfg6.N) (i : S256x1.Idx) :
    i ∈ ((cfg6.win 3).blk t).view.set ↔ ∀ a : Fin 2, win6_3.index t a * S256x1.size a ≤ (i a).val
      ∧ (i a).val < win6_3.index t a * S256x1.size a + S256x1.size a := by
  show i ∈ ((View.whole main_v141).slice (win6_3.rect t)).set ↔ _
  rw [View.set_slice_whole, Rect.mem_set_unit]
  exact Iff.rfl

/-- The one point's block is the whole result array. -/
theorem hc_cover6 (i : S256x1.Idx) :
    ∃ t : Fin cfg6.N, (cfg6.win 3).flush t = true ∧ i ∈ ((cfg6.win 3).blk t).view.set := by
  have hi0 : (i 0).val < 256 := (i 0).isLt
  have hi1 : (i 1).val < 1 := (i 1).isLt
  obtain ⟨-, -, -, -, -, -, e30, e31⟩ := hc_idx6 t6_0
  refine ⟨t6_0, flush6_3 t6_0, ?_⟩
  rw [hc_mem_blk6]
  intro a
  match a with
  | ⟨0, _⟩ =>
    show win6_3.index t6_0 (0 : Fin 2) * 256 ≤ (i 0).val ∧ (i 0).val < win6_3.index t6_0 (0 : Fin 2) * 256 + 256
    omega
  | ⟨1, _⟩ =>
    show win6_3.index t6_0 (1 : Fin 2) * 1 ≤ (i 1).val ∧ (i 1).val < win6_3.index t6_0 (1 : Fin 2) * 1 + 1
    omega

/-- Region 6's result array is the product of the pooled matrix and the weight column, plus the bias. -/
theorem lin6 (c : Dev nD) : (dat6 (F := Ideal) V c).arrAt 3 cfg6.N
    = Cert.Spec.lin (V c main_v139) (V c main_arg15) (V c main_v140) :=
  (dat6 V c).arrAt_eq_of_cover 3 (Cert.Spec.lin (V c main_v139) (V c main_arg15) (V c main_v140))
    (fun t _ => hc_flushed6 V c t) hc_cover6

end Cert.Region

end
-- ==== Proof.RefSide.lean ====
/-
  The reference's stages against the shared whole-array functions, on the extended reals.

  The reference computes each projection as one `dot_general`, each normalisation as a chain of broadcasts and
  elementwise operations on whole arrays (the statistics and parameters broadcast from `[128]` to `[1, 128]` to
  `[100000, 128]`, the clamp as a maximum with a broadcast zero), and the read-out as a `dot_general` plus a broadcast
  bias. Read at an index, each is the shared function of the stages it is computed from.
-/
import proofs.«127011_j4758823764123_1_alg».proof.Proof.ReadP
import proofs.«127011_j4758823764123_1_alg».proof.Proof.Spec
import proofs.«127011_j4758823764123_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.RefSide

open Idealize.ShloMosaic Idealize.ShloMosaic.TcCoe Idealize.ShloMosaic.ValueIdx
open Cert.ReferenceIdeal Cert.ReferenceIdeal.Gen Cert.ReferenceIdeal.ReadP

/-- A `[C]` vector reshaped to `1 × C` is the row the normalisation takes. -/
theorem cast_row {C : Nat} (y : (⟨1, ![C]⟩ : Shape).Idx → EReal) (h : (⟨1, ![C]⟩ : Shape).ShapeCasts ⟨2, ![1, C]⟩) :
    shapeCast (⟨2, ![1, C]⟩ : Shape) y h = Cert.Spec.row y := by
  funext i
  refine (shapeCast_apply y h i (ix1 (i 1)) ?_).trans rfl
  rw [Shape.rowMajor_val_one, Shape.rowMajor_val_two]
  have h0 : (i 0).val < 1 := (i 0).isLt
  show (i 1).val = (i 0).val * C + (i 1).val
  have : (i 0).val = 0 := by omega
  rw [this]; omega

/-- The host's plain matrix product is the shared product, whatever proof of well-formedness its dimension record carries. -/
theorem he_dot {M K N : Nat} (d : DotDims (⟨2, ![M, K]⟩ : Shape) ⟨2, ![K, N]⟩ ⟨2, ![M, N]⟩) (hd : d = DotDims.plain M K N)
    (prec : Option ContractPrecision)
    (x : FVec Ideal (⟨2, ![M, K]⟩ : Shape) .f32) (w : FVec Ideal (⟨2, ![K, N]⟩ : Shape) .f32) :
    Host.dotGeneral (F := Ideal) d prec x w = Cert.Spec.mm x w := by
  subst hd
  funext j
  exact Cert.PlainDot.dotGeneral_apply M K N prec _ x w j

theorem ref_mm32 (x0 : (⟨S100000x128, .f32⟩ : BufTy).Contents (Elt Ideal)) (x3 : (⟨S128x128, .f32⟩ : BufTy).Contents (Elt Ideal)) :
    val_main_v32 (F := Ideal) x0 x3 = Cert.Spec.mm x0 x3 := by
  unfold val_main_v32
  exact he_dot _ rfl _ x0 x3

theorem ref_mm75 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) :
    val_main_v75 (F := Ideal) x0 x1 x3 x4 x5 x6 x7 = Cert.Spec.mm (val_main_v74 (F := Ideal) x0 x1 x3 x4 x5 x6) x7 := by
  unfold val_main_v75
  exact he_dot _ rfl _ _ x7

theorem ref_mm118 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128x128, .f32⟩ : BufTy).Contents (Elt Ideal)) :
    val_main_v118 (F := Ideal) x0 x1 x3 x4 x5 x6 x7 x8 x9 x10 x11 = Cert.Spec.mm (val_main_v117 (F := Ideal) x0 x1 x3 x4 x5 x6 x7 x8 x9 x10) x11 := by
  unfold val_main_v118
  exact he_dot _ rfl _ _ x11

/-- A rank-0 array broadcast to any shape, read anywhere, is its one entry. -/
theorem he_bc0 {α : Type} {t : Shape} (dims : Fin S_.rank → Fin t.rank) (hb : S_.BroadcastsInDim t dims) (c : S_.Idx → α) (i : t.Idx) :
    broadcastInDim t dims hb c i = c ix0 :=
  broadcastInDim_apply dims hb c i ix0 (fun a => a.elim0)

/-- A `[128]` vector broadcast to `1 × 128` and then to `100000 × 128`, read at `(p, q)`, is the vector at `q`. -/
theorem he_bc2 {α : Type} (hb1 : S128.BroadcastsInDim S1x128 ![1]) (hb2 : S1x128.BroadcastsInDim S100000x128 ![0, 1])
    (v : S128.Idx → α) (p : Fin 100000) (q : Fin 128) :
    broadcastInDim S100000x128 ![0, 1] hb2 (broadcastInDim S1x128 ![1] hb1 v) (ix2 p q) = v (ix1 q) := by
  refine (broadcastInDim_apply _ hb2 _ (ix2 p q) (ix2 0 q) ?_).trans ?_
  · intro a
    match a with
    | ⟨0, _⟩ => show 0 = if (1 : Nat) = 1 then 0 else p.val; rw [if_pos rfl]
    | ⟨1, _⟩ => show q.val = if (128 : Nat) = 1 then 0 else q.val; rw [if_neg (by decide)]
  · refine broadcastInDim_apply _ hb1 v (ix2 0 q) (ix1 q) ?_
    intro a
    match a with
    | ⟨0, _⟩ => show q.val = if (128 : Nat) = 1 then 0 else q.val; rw [if_neg (by decide)]

/-- The reference's normalisation chain over arbitrary arrays: the statistics and parameters broadcast from `[128]` through
    `[1, 128]` to `[100000, 128]`, the two float words broadcast from rank 0, and the elementwise operations in the
    reference's order, are the shared normalisation of the rows. -/
theorem he_bn (hb0 : S_.BroadcastsInDim S128 ![]) (hbz : S_.BroadcastsInDim S100000x128 ![])
    (hb1 : S128.BroadcastsInDim S1x128 ![1]) (hb2 : S1x128.BroadcastsInDim S100000x128 ![0, 1])
    (h : FVec Ideal S100000x128 .f32) (mean var g be : FVec Ideal S128 .f32) :
    maximumf
      (addf
        (mulf (mulf (broadcastInDim S100000x128 ![0, 1] hb2 (broadcastInDim S1x128 ![1] hb1 g))
                    (subf h (broadcastInDim S100000x128 ![0, 1] hb2 (broadcastInDim S1x128 ![1] hb1 mean))))
              (broadcastInDim S100000x128 ![0, 1] hb2 (broadcastInDim S1x128 ![1] hb1
                (Host.rsqrt (addf var (broadcastInDim S128 ![] hb0 (constant S_ .f32 0x3727C5AC#32)))))))
        (broadcastInDim S100000x128 ![0, 1] hb2 (broadcastInDim S1x128 ![1] hb1 be)))
      (broadcastInDim S100000x128 ![] hbz (constant S_ .f32 0x00000000#32))
    = Cert.Spec.bn h (Cert.Spec.row mean) (Cert.Spec.row var) (Cert.Spec.row g) (Cert.Spec.row be) := by
  funext i
  obtain ⟨p, q, rfl⟩ : ∃ (p : Fin 100000) (q : Fin 128), i = ix2 p q := ⟨i 0, i 1, eq_ix2 i⟩
  simp only [maximumf, addf, mulf, subf, he_bc0, constant]
  rw [he_bc2 hb1 hb2 g p q, he_bc2 hb1 hb2 mean p q, he_bc2 hb1 hb2 be p q, he_bc2 hb1 hb2 _ p q]
  rfl

theorem ref_bn74 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) :
    val_main_v74 (F := Ideal) x0 x1 x3 x4 x5 x6 = Cert.Spec.bn (val_main_v48 (F := Ideal) x0 x1 x3 x4) (Cert.Spec.row (val_main_v51 (F := Ideal) x0 x1 x3 x4)) (Cert.Spec.row (val_main_v58 (F := Ideal) x0 x1 x3 x4)) (Cert.Spec.row x5) (Cert.Spec.row x6) := by
  unfold val_main_v74 val_main_v73 val_main_v70 val_main_v64 val_main_v61 val_main_v60 val_main_v59 val_main_v63 val_main_v62
    val_main_v69 val_main_v68 val_main_v67 val_main_v66 val_main_v65 val_main_cst_14 val_main_v72 val_main_v71
    val_main_call1_v0 val_main_call1_cst
  exact he_bn _ _ _ _ _ _ _ _ _

theorem ref_bn117 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) :
    val_main_v117 (F := Ideal) x0 x1 x3 x4 x5 x6 x7 x8 x9 x10 = Cert.Spec.bn (val_main_v91 (F := Ideal) x0 x1 x3 x4 x5 x6 x7 x8) (Cert.Spec.row (val_main_v94 (F := Ideal) x0 x1 x3 x4 x5 x6 x7 x8)) (Cert.Spec.row (val_main_v101 (F := Ideal) x0 x1 x3 x4 x5 x6 x7 x8)) (Cert.Spec.row x9) (Cert.Spec.row x10) := by
  unfold val_main_v117 val_main_v116 val_main_v113 val_main_v107 val_main_v104 val_main_v103 val_main_v102 val_main_v106 val_main_v105
    val_main_v112 val_main_v111 val_main_v110 val_main_v109 val_main_v108 val_main_cst_22 val_main_v115 val_main_v114
    val_main_call2_v0 val_main_call2_cst
  exact he_bn _ _ _ _ _ _ _ _ _

theorem ref_bn160 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) :
    val_main_v160 (F := Ideal) x0 x1 x3 x4 x5 x6 x7 x8 x9 x10 x11 x12 x13 x14 = Cert.Spec.bn (val_main_v134 (F := Ideal) x0 x1 x3 x4 x5 x6 x7 x8 x9 x10 x11 x12) (Cert.Spec.row (val_main_v137 (F := Ideal) x0 x1 x3 x4 x5 x6 x7 x8 x9 x10 x11 x12)) (Cert.Spec.row (val_main_v144 (F := Ideal) x0 x1 x3 x4 x5 x6 x7 x8 x9 x10 x11 x12)) (Cert.Spec.row x13) (Cert.Spec.row x14) := by
  unfold val_main_v160 val_main_v159 val_main_v156 val_main_v150 val_main_v147 val_main_v146 val_main_v145 val_main_v149 val_main_v148
    val_main_v155 val_main_v154 val_main_v153 val_main_v152 val_main_v151 val_main_cst_30 val_main_v158 val_main_v157
    val_main_call3_v0 val_main_call3_cst
  exact he_bn _ _ _ _ _ _ _ _ _

/-- The reference's read-out over arbitrary arrays: the `256 × 128` by `128 × 1` product plus the one bias word broadcast
    from `[1]` through `[1, 1]` to `[256, 1]`. -/
theorem he_lin (d : DotDims S256x128 S128x1 S256x1) (hd : d = DotDims.plain 256 128 1)
    (hb1 : S1.BroadcastsInDim S1x1 ![1]) (hb2 : S1x1.BroadcastsInDim S256x1 ![0, 1])
    (p : FVec Ideal S256x128 .f32) (w : FVec Ideal S128x1 .f32) (b : FVec Ideal S1 .f32) :
    addf (Host.dotGeneral (F := Ideal) d none p w) (broadcastInDim S256x1 ![0, 1] hb2 (broadcastInDim S1x1 ![1] hb1 b))
      = Cert.Spec.lin p w (Cert.Spec.row b) := by
  funext i
  have hbias : broadcastInDim S256x1 ![0, 1] hb2 (broadcastInDim S1x1 ![1] hb1 b) i = b (ix1 0) := by
    refine (broadcastInDim_apply _ hb2 _ i (ix2 0 0) ?_).trans ?_
    · intro a
      match a with
      | ⟨0, _⟩ => show 0 = if (1 : Nat) = 1 then 0 else (i 0).val; rw [if_pos rfl]
      | ⟨1, _⟩ => show 0 = if (1 : Nat) = 1 then 0 else (i 1).val; rw [if_pos rfl]
    · refine broadcastInDim_apply _ hb1 b (ix2 0 0) (ix1 0) ?_
      intro a
      match a with
      | ⟨0, _⟩ => show 0 = if (1 : Nat) = 1 then 0 else 0; rw [if_pos rfl]
  show FloatOps.addf (Host.dotGeneral (F := Ideal) d none p w i) (broadcastInDim S256x1 ![0, 1] hb2 (broadcastInDim S1x1 ![1] hb1 b) i) = _
  rw [hbias, he_dot d hd none p w]
  rfl

theorem ref_lin176 (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128x1, .f32⟩ : BufTy).Contents (Elt Ideal)) (x16 : (⟨S1, .f32⟩ : BufTy).Contents (Elt Ideal)) :
    val_main_v176 (F := Ideal) x0 x1 x2 x3 x4 x5 x6 x7 x8 x9 x10 x11 x12 x13 x14 x15 x16 = Cert.Spec.lin (val_main_v172 (F := Ideal) x0 x1 x2 x3 x4 x5 x6 x7 x8 x9 x10 x11 x12 x13 x14) x15 (Cert.Spec.row x16) := by
  unfold val_main_v176 val_main_v175 val_main_v174 val_main_v173
  exact he_lin _ rfl _ _ _ x15 x16

end Cert.RefSide

end
-- ==== Proof.Chain.lean ====
/-
  The idealized kernel's result is the reference's last stage of the launch arguments.

  The kernel's run names the contents of every buffer at each boundary between its segments (host lines, regions).
  Walking the boundaries in order, each buffer that a later segment reads is shown to hold the reference's own stage
  of the launch arguments: a stretch of host lines is the reference's stretch operation for operation; a projection
  region leaves the matrix product of what it finds, which is the reference's `dot_general`; a normalisation region
  leaves the normalised, scaled, shifted and clamped array, which is the reference's chain of broadcasts and
  elementwise operations; the read-out region leaves the product plus the bias, the reference's last three lines.
  Buffers a segment does not write keep their contents across it.
-/
import proofs.«127011_j4758823764123_1_alg».proof.Proof.Gen.KernelIdeal.Frame
import proofs.«127011_j4758823764123_1_alg».proof.Proof.ReadP
import proofs.«127011_j4758823764123_1_alg».proof.Proof.Spec
import proofs.«127011_j4758823764123_1_alg».proof.Proof.Stretch0
import proofs.«127011_j4758823764123_1_alg».proof.Proof.Stretch1
import proofs.«127011_j4758823764123_1_alg».proof.Proof.Stretch3
import proofs.«127011_j4758823764123_1_alg».proof.Proof.Stretch5
import proofs.«127011_j4758823764123_1_alg».proof.Proof.Stretch6
import proofs.«127011_j4758823764123_1_alg».proof.Proof.RegionMM
import proofs.«127011_j4758823764123_1_alg».proof.Proof.RegionBN
import proofs.«127011_j4758823764123_1_alg».proof.Proof.RegionLin
import proofs.«127011_j4758823764123_1_alg».proof.Proof.RefSide

noncomputable section

namespace Cert.Chain

open Idealize.ShloMosaic Idealize.ShloMosaic.StableHlo Idealize.ShloMosaic.TcCoe
open Cert.KernelIdeal Cert.KernelIdeal.Gen Cert.ReferenceIdeal.ReadP Cert.Stretch Cert.Region Cert.RefSide

variable (m : (ℓ : Loc nD τ sig) → Buf (Elt Ideal) ℓ) (ρ : Dev nD → PrngReg) (c : Dev nD)

/-! ## The launch arguments on core `c` -/

abbrev a0 : (⟨S100000x128, .f32⟩ : BufTy).Contents (Elt Ideal) := m ((c : Thread nD τ).loc main_arg0)
abbrev a1 : (⟨S2x1600000, .i32⟩ : BufTy).Contents (Elt Ideal) := m ((c : Thread nD τ).loc main_arg1)
abbrev a2 : (⟨S100000, .i32⟩ : BufTy).Contents (Elt Ideal) := m ((c : Thread nD τ).loc main_arg2)
abbrev a3 : (⟨S128x128, .f32⟩ : BufTy).Contents (Elt Ideal) := m ((c : Thread nD τ).loc main_arg3)
abbrev a4 : (⟨S128, .f32⟩ : BufTy).Contents (Elt Ideal) := m ((c : Thread nD τ).loc main_arg4)
abbrev a5 : (⟨S128, .f32⟩ : BufTy).Contents (Elt Ideal) := m ((c : Thread nD τ).loc main_arg5)
abbrev a6 : (⟨S128, .f32⟩ : BufTy).Contents (Elt Ideal) := m ((c : Thread nD τ).loc main_arg6)
abbrev a7 : (⟨S128x128, .f32⟩ : BufTy).Contents (Elt Ideal) := m ((c : Thread nD τ).loc main_arg7)
abbrev a8 : (⟨S128, .f32⟩ : BufTy).Contents (Elt Ideal) := m ((c : Thread nD τ).loc main_arg8)
abbrev a9 : (⟨S128, .f32⟩ : BufTy).Contents (Elt Ideal) := m ((c : Thread nD τ).loc main_arg9)
abbrev a10 : (⟨S128, .f32⟩ : BufTy).Contents (Elt Ideal) := m ((c : Thread nD τ).loc main_arg10)
abbrev a11 : (⟨S128x128, .f32⟩ : BufTy).Contents (Elt Ideal) := m ((c : Thread nD τ).loc main_arg11)
abbrev a12 : (⟨S128, .f32⟩ : BufTy).Contents (Elt Ideal) := m ((c : Thread nD τ).loc main_arg12)
abbrev a13 : (⟨S128, .f32⟩ : BufTy).Contents (Elt Ideal) := m ((c : Thread nD τ).loc main_arg13)
abbrev a14 : (⟨S128, .f32⟩ : BufTy).Contents (Elt Ideal) := m ((c : Thread nD τ).loc main_arg14)
abbrev a15 : (⟨S128x1, .f32⟩ : BufTy).Contents (Elt Ideal) := m ((c : Thread nD τ).loc main_arg15)
abbrev a16 : (⟨S1, .f32⟩ : BufTy).Contents (Elt Ideal) := m ((c : Thread nD τ).loc main_arg16)

/-! ## Before the first region -/

theorem b3_v3 : W3 m ρ c (Proc.devRef .tc main_v3) = val_main_v3 (a1 m c) :=
  s0_v3 (W0 m ρ c) _ rfl
theorem b3_v7 : W3 m ρ c (Proc.devRef .tc main_v7) = val_main_v7 (a1 m c) :=
  s0_v7 (W0 m ρ c) _ rfl
theorem b3_v31 : W3 m ρ c (Proc.devRef .tc main_v31) = val_main_v31 (a1 m c) :=
  s0_v31 (W0 m ρ c) _ rfl
theorem b3_arg0 : W3 m ρ c (Proc.devRef .tc main_arg0) = a0 m c :=
  k0_arg0 (W0 m ρ c)
theorem b3_arg2 : W3 m ρ c (Proc.devRef .tc main_arg2) = a2 m c :=
  k0_arg2 (W0 m ρ c)
theorem b3_arg3 : W3 m ρ c (Proc.devRef .tc main_arg3) = a3 m c :=
  k0_arg3 (W0 m ρ c)
theorem b3_arg4 : W3 m ρ c (Proc.devRef .tc main_arg4) = a4 m c :=
  k0_arg4 (W0 m ρ c)
theorem b3_arg5 : W3 m ρ c (Proc.devRef .tc main_arg5) = a5 m c :=
  k0_arg5 (W0 m ρ c)
theorem b3_arg6 : W3 m ρ c (Proc.devRef .tc main_arg6) = a6 m c :=
  k0_arg6 (W0 m ρ c)
theorem b3_arg7 : W3 m ρ c (Proc.devRef .tc main_arg7) = a7 m c :=
  k0_arg7 (W0 m ρ c)
theorem b3_arg8 : W3 m ρ c (Proc.devRef .tc main_arg8) = a8 m c :=
  k0_arg8 (W0 m ρ c)
theorem b3_arg9 : W3 m ρ c (Proc.devRef .tc main_arg9) = a9 m c :=
  k0_arg9 (W0 m ρ c)
theorem b3_arg10 : W3 m ρ c (Proc.devRef .tc main_arg10) = a10 m c :=
  k0_arg10 (W0 m ρ c)
theorem b3_arg11 : W3 m ρ c (Proc.devRef .tc main_arg11) = a11 m c :=
  k0_arg11 (W0 m ρ c)
theorem b3_arg12 : W3 m ρ c (Proc.devRef .tc main_arg12) = a12 m c :=
  k0_arg12 (W0 m ρ c)
theorem b3_arg13 : W3 m ρ c (Proc.devRef .tc main_arg13) = a13 m c :=
  k0_arg13 (W0 m ρ c)
theorem b3_arg14 : W3 m ρ c (Proc.devRef .tc main_arg14) = a14 m c :=
  k0_arg14 (W0 m ρ c)
theorem b3_arg15 : W3 m ρ c (Proc.devRef .tc main_arg15) = a15 m c :=
  k0_arg15 (W0 m ρ c)
theorem b3_arg16 : W3 m ρ c (Proc.devRef .tc main_arg16) = a16 m c :=
  k0_arg16 (W0 m ρ c)

/-! ## Region 0: a projection -/

theorem b4_v32 : W4 m ρ c (Proc.devRef .tc main_v32) = val_main_v32 (a0 m c) (a3 m c) := by
  refine (W4_arr m ρ c 2).trans ((mm0 (V3 m ρ) c).trans ?_)
  show Cert.Spec.mm (W3 m ρ c (Proc.devRef .tc main_arg0)) (W3 m ρ c (Proc.devRef .tc main_arg3)) = _
  rw [b3_arg0 m ρ c, b3_arg3 m ρ c]
  exact (ref_mm32 _ _).symm
theorem b4_v3 : W4 m ρ c (Proc.devRef .tc main_v3) = val_main_v3 (a1 m c) :=
  (W4_of_ne m ρ c main_v3 (by decide)).trans (b3_v3 m ρ c)
theorem b4_v7 : W4 m ρ c (Proc.devRef .tc main_v7) = val_main_v7 (a1 m c) :=
  (W4_of_ne m ρ c main_v7 (by decide)).trans (b3_v7 m ρ c)
theorem b4_v31 : W4 m ρ c (Proc.devRef .tc main_v31) = val_main_v31 (a1 m c) :=
  (W4_of_ne m ρ c main_v31 (by decide)).trans (b3_v31 m ρ c)
theorem b4_arg2 : W4 m ρ c (Proc.devRef .tc main_arg2) = a2 m c :=
  (W4_of_ne m ρ c main_arg2 (by decide)).trans (b3_arg2 m ρ c)
theorem b4_arg4 : W4 m ρ c (Proc.devRef .tc main_arg4) = a4 m c :=
  (W4_of_ne m ρ c main_arg4 (by decide)).trans (b3_arg4 m ρ c)
theorem b4_arg5 : W4 m ρ c (Proc.devRef .tc main_arg5) = a5 m c :=
  (W4_of_ne m ρ c main_arg5 (by decide)).trans (b3_arg5 m ρ c)
theorem b4_arg6 : W4 m ρ c (Proc.devRef .tc main_arg6) = a6 m c :=
  (W4_of_ne m ρ c main_arg6 (by decide)).trans (b3_arg6 m ρ c)
theorem b4_arg7 : W4 m ρ c (Proc.devRef .tc main_arg7) = a7 m c :=
  (W4_of_ne m ρ c main_arg7 (by decide)).trans (b3_arg7 m ρ c)
theorem b4_arg8 : W4 m ρ c (Proc.devRef .tc main_arg8) = a8 m c :=
  (W4_of_ne m ρ c main_arg8 (by decide)).trans (b3_arg8 m ρ c)
theorem b4_arg9 : W4 m ρ c (Proc.devRef .tc main_arg9) = a9 m c :=
  (W4_of_ne m ρ c main_arg9 (by decide)).trans (b3_arg9 m ρ c)
theorem b4_arg10 : W4 m ρ c (Proc.devRef .tc main_arg10) = a10 m c :=
  (W4_of_ne m ρ c main_arg10 (by decide)).trans (b3_arg10 m ρ c)
theorem b4_arg11 : W4 m ρ c (Proc.devRef .tc main_arg11) = a11 m c :=
  (W4_of_ne m ρ c main_arg11 (by decide)).trans (b3_arg11 m ρ c)
theorem b4_arg12 : W4 m ρ c (Proc.devRef .tc main_arg12) = a12 m c :=
  (W4_of_ne m ρ c main_arg12 (by decide)).trans (b3_arg12 m ρ c)
theorem b4_arg13 : W4 m ρ c (Proc.devRef .tc main_arg13) = a13 m c :=
  (W4_of_ne m ρ c main_arg13 (by decide)).trans (b3_arg13 m ρ c)
theorem b4_arg14 : W4 m ρ c (Proc.devRef .tc main_arg14) = a14 m c :=
  (W4_of_ne m ρ c main_arg14 (by decide)).trans (b3_arg14 m ρ c)
theorem b4_arg15 : W4 m ρ c (Proc.devRef .tc main_arg15) = a15 m c :=
  (W4_of_ne m ρ c main_arg15 (by decide)).trans (b3_arg15 m ρ c)
theorem b4_arg16 : W4 m ρ c (Proc.devRef .tc main_arg16) = a16 m c :=
  (W4_of_ne m ρ c main_arg16 (by decide)).trans (b3_arg16 m ρ c)

/-! ## The first layer's host lines -/

theorem b5_v48 : W5 m ρ c (Proc.devRef .tc main_v48) = val_main_v48 (a0 m c) (a1 m c) (a3 m c) (a4 m c) :=
  s1_v48 (W4 m ρ c) (a0 m c) (a1 m c) (a3 m c) (a4 m c) (b4_v3 m ρ c) (b4_v7 m ρ c) (b4_v31 m ρ c) (b4_v32 m ρ c) (b4_arg4 m ρ c)
theorem b5_v59 : W5 m ρ c (Proc.devRef .tc main_v59) = shapeCast S1x128 (val_main_v51 (a0 m c) (a1 m c) (a3 m c) (a4 m c)) shapeCasts_S128_S1x128 :=
  s1_v59 (W4 m ρ c) (a0 m c) (a1 m c) (a3 m c) (a4 m c) (b4_v3 m ρ c) (b4_v7 m ρ c) (b4_v31 m ρ c) (b4_v32 m ρ c) (b4_arg4 m ρ c)
theorem b5_v60 : W5 m ρ c (Proc.devRef .tc main_v60) = shapeCast S1x128 (val_main_v58 (a0 m c) (a1 m c) (a3 m c) (a4 m c)) shapeCasts_S128_S1x128 :=
  s1_v60 (W4 m ρ c) (a0 m c) (a1 m c) (a3 m c) (a4 m c) (b4_v3 m ρ c) (b4_v7 m ρ c) (b4_v31 m ρ c) (b4_v32 m ρ c) (b4_arg4 m ρ c)
theorem b5_v61 : W5 m ρ c (Proc.devRef .tc main_v61) = shapeCast S1x128 (a5 m c) shapeCasts_S128_S1x128 :=
  s1_v61 (W4 m ρ c) (a5 m c) (b4_arg5 m ρ c)
theorem b5_v62 : W5 m ρ c (Proc.devRef .tc main_v62) = shapeCast S1x128 (a6 m c) shapeCasts_S128_S1x128 :=
  s1_v62 (W4 m ρ c) (a6 m c) (b4_arg6 m ρ c)
theorem b5_v3 : W5 m ρ c (Proc.devRef .tc main_v3) = val_main_v3 (a1 m c) :=
  (k1_v3 (W4 m ρ c)).trans (b4_v3 m ρ c)
theorem b5_v7 : W5 m ρ c (Proc.devRef .tc main_v7) = val_main_v7 (a1 m c) :=
  (k1_v7 (W4 m ρ c)).trans (b4_v7 m ρ c)
theorem b5_v31 : W5 m ρ c (Proc.devRef .tc main_v31) = val_main_v31 (a1 m c) :=
  (k1_v31 (W4 m ρ c)).trans (b4_v31 m ρ c)
theorem b5_arg2 : W5 m ρ c (Proc.devRef .tc main_arg2) = a2 m c :=
  (k1_arg2 (W4 m ρ c)).trans (b4_arg2 m ρ c)
theorem b5_arg7 : W5 m ρ c (Proc.devRef .tc main_arg7) = a7 m c :=
  (k1_arg7 (W4 m ρ c)).trans (b4_arg7 m ρ c)
theorem b5_arg8 : W5 m ρ c (Proc.devRef .tc main_arg8) = a8 m c :=
  (k1_arg8 (W4 m ρ c)).trans (b4_arg8 m ρ c)
theorem b5_arg9 : W5 m ρ c (Proc.devRef .tc main_arg9) = a9 m c :=
  (k1_arg9 (W4 m ρ c)).trans (b4_arg9 m ρ c)
theorem b5_arg10 : W5 m ρ c (Proc.devRef .tc main_arg10) = a10 m c :=
  (k1_arg10 (W4 m ρ c)).trans (b4_arg10 m ρ c)
theorem b5_arg11 : W5 m ρ c (Proc.devRef .tc main_arg11) = a11 m c :=
  (k1_arg11 (W4 m ρ c)).trans (b4_arg11 m ρ c)
theorem b5_arg12 : W5 m ρ c (Proc.devRef .tc main_arg12) = a12 m c :=
  (k1_arg12 (W4 m ρ c)).trans (b4_arg12 m ρ c)
theorem b5_arg13 : W5 m ρ c (Proc.devRef .tc main_arg13) = a13 m c :=
  (k1_arg13 (W4 m ρ c)).trans (b4_arg13 m ρ c)
theorem b5_arg14 : W5 m ρ c (Proc.devRef .tc main_arg14) = a14 m c :=
  (k1_arg14 (W4 m ρ c)).trans (b4_arg14 m ρ c)
theorem b5_arg15 : W5 m ρ c (Proc.devRef .tc main_arg15) = a15 m c :=
  (k1_arg15 (W4 m ρ c)).trans (b4_arg15 m ρ c)
theorem b5_arg16 : W5 m ρ c (Proc.devRef .tc main_arg16) = a16 m c :=
  (k1_arg16 (W4 m ρ c)).trans (b4_arg16 m ρ c)

/-! ## Region 1: a normalisation -/

theorem b6_v63 : W6 m ρ c (Proc.devRef .tc main_v63) = val_main_v74 (a0 m c) (a1 m c) (a3 m c) (a4 m c) (a5 m c) (a6 m c) := by
  refine (W6_arr m ρ c 5).trans ((bn1 (V5 m ρ) c).trans ?_)
  show Cert.Spec.bn (W5 m ρ c (Proc.devRef .tc main_v48)) (W5 m ρ c (Proc.devRef .tc main_v59)) (W5 m ρ c (Proc.devRef .tc main_v60)) (W5 m ρ c (Proc.devRef .tc main_v61)) (W5 m ρ c (Proc.devRef .tc main_v62)) = _
  rw [b5_v48 m ρ c, b5_v59 m ρ c, b5_v60 m ρ c, b5_v61 m ρ c, b5_v62 m ρ c]
  rw [cast_row, cast_row, cast_row, cast_row]
  exact (ref_bn74 _ _ _ _ _ _).symm
theorem b6_v3 : W6 m ρ c (Proc.devRef .tc main_v3) = val_main_v3 (a1 m c) :=
  (W6_of_ne m ρ c main_v3 (by decide)).trans (b5_v3 m ρ c)
theorem b6_v7 : W6 m ρ c (Proc.devRef .tc main_v7) = val_main_v7 (a1 m c) :=
  (W6_of_ne m ρ c main_v7 (by decide)).trans (b5_v7 m ρ c)
theorem b6_v31 : W6 m ρ c (Proc.devRef .tc main_v31) = val_main_v31 (a1 m c) :=
  (W6_of_ne m ρ c main_v31 (by decide)).trans (b5_v31 m ρ c)
theorem b6_arg2 : W6 m ρ c (Proc.devRef .tc main_arg2) = a2 m c :=
  (W6_of_ne m ρ c main_arg2 (by decide)).trans (b5_arg2 m ρ c)
theorem b6_arg7 : W6 m ρ c (Proc.devRef .tc main_arg7) = a7 m c :=
  (W6_of_ne m ρ c main_arg7 (by decide)).trans (b5_arg7 m ρ c)
theorem b6_arg8 : W6 m ρ c (Proc.devRef .tc main_arg8) = a8 m c :=
  (W6_of_ne m ρ c main_arg8 (by decide)).trans (b5_arg8 m ρ c)
theorem b6_arg9 : W6 m ρ c (Proc.devRef .tc main_arg9) = a9 m c :=
  (W6_of_ne m ρ c main_arg9 (by decide)).trans (b5_arg9 m ρ c)
theorem b6_arg10 : W6 m ρ c (Proc.devRef .tc main_arg10) = a10 m c :=
  (W6_of_ne m ρ c main_arg10 (by decide)).trans (b5_arg10 m ρ c)
theorem b6_arg11 : W6 m ρ c (Proc.devRef .tc main_arg11) = a11 m c :=
  (W6_of_ne m ρ c main_arg11 (by decide)).trans (b5_arg11 m ρ c)
theorem b6_arg12 : W6 m ρ c (Proc.devRef .tc main_arg12) = a12 m c :=
  (W6_of_ne m ρ c main_arg12 (by decide)).trans (b5_arg12 m ρ c)
theorem b6_arg13 : W6 m ρ c (Proc.devRef .tc main_arg13) = a13 m c :=
  (W6_of_ne m ρ c main_arg13 (by decide)).trans (b5_arg13 m ρ c)
theorem b6_arg14 : W6 m ρ c (Proc.devRef .tc main_arg14) = a14 m c :=
  (W6_of_ne m ρ c main_arg14 (by decide)).trans (b5_arg14 m ρ c)
theorem b6_arg15 : W6 m ρ c (Proc.devRef .tc main_arg15) = a15 m c :=
  (W6_of_ne m ρ c main_arg15 (by decide)).trans (b5_arg15 m ρ c)
theorem b6_arg16 : W6 m ρ c (Proc.devRef .tc main_arg16) = a16 m c :=
  (W6_of_ne m ρ c main_arg16 (by decide)).trans (b5_arg16 m ρ c)

/-! ## Region 2: a projection -/

theorem b7_v64 : W7 m ρ c (Proc.devRef .tc main_v64) = val_main_v75 (a0 m c) (a1 m c) (a3 m c) (a4 m c) (a5 m c) (a6 m c) (a7 m c) := by
  refine (W7_arr m ρ c 2).trans ((mm2 (V6 m ρ) c).trans ?_)
  show Cert.Spec.mm (W6 m ρ c (Proc.devRef .tc main_v63)) (W6 m ρ c (Proc.devRef .tc main_arg7)) = _
  rw [b6_v63 m ρ c, b6_arg7 m ρ c]
  exact (ref_mm75 _ _ _ _ _ _ _).symm
theorem b7_v3 : W7 m ρ c (Proc.devRef .tc main_v3) = val_main_v3 (a1 m c) :=
  (W7_of_ne m ρ c main_v3 (by decide)).trans (b6_v3 m ρ c)
theorem b7_v7 : W7 m ρ c (Proc.devRef .tc main_v7) = val_main_v7 (a1 m c) :=
  (W7_of_ne m ρ c main_v7 (by decide)).trans (b6_v7 m ρ c)
theorem b7_v31 : W7 m ρ c (Proc.devRef .tc main_v31) = val_main_v31 (a1 m c) :=
  (W7_of_ne m ρ c main_v31 (by decide)).trans (b6_v31 m ρ c)
theorem b7_arg2 : W7 m ρ c (Proc.devRef .tc main_arg2) = a2 m c :=
  (W7_of_ne m ρ c main_arg2 (by decide)).trans (b6_arg2 m ρ c)
theorem b7_arg8 : W7 m ρ c (Proc.devRef .tc main_arg8) = a8 m c :=
  (W7_of_ne m ρ c main_arg8 (by decide)).trans (b6_arg8 m ρ c)
theorem b7_arg9 : W7 m ρ c (Proc.devRef .tc main_arg9) = a9 m c :=
  (W7_of_ne m ρ c main_arg9 (by decide)).trans (b6_arg9 m ρ c)
theorem b7_arg10 : W7 m ρ c (Proc.devRef .tc main_arg10) = a10 m c :=
  (W7_of_ne m ρ c main_arg10 (by decide)).trans (b6_arg10 m ρ c)
theorem b7_arg11 : W7 m ρ c (Proc.devRef .tc main_arg11) = a11 m c :=
  (W7_of_ne m ρ c main_arg11 (by decide)).trans (b6_arg11 m ρ c)
theorem b7_arg12 : W7 m ρ c (Proc.devRef .tc main_arg12) = a12 m c :=
  (W7_of_ne m ρ c main_arg12 (by decide)).trans (b6_arg12 m ρ c)
theorem b7_arg13 : W7 m ρ c (Proc.devRef .tc main_arg13) = a13 m c :=
  (W7_of_ne m ρ c main_arg13 (by decide)).trans (b6_arg13 m ρ c)
theorem b7_arg14 : W7 m ρ c (Proc.devRef .tc main_arg14) = a14 m c :=
  (W7_of_ne m ρ c main_arg14 (by decide)).trans (b6_arg14 m ρ c)
theorem b7_arg15 : W7 m ρ c (Proc.devRef .tc main_arg15) = a15 m c :=
  (W7_of_ne m ρ c main_arg15 (by decide)).trans (b6_arg15 m ρ c)
theorem b7_arg16 : W7 m ρ c (Proc.devRef .tc main_arg16) = a16 m c :=
  (W7_of_ne m ρ c main_arg16 (by decide)).trans (b6_arg16 m ρ c)

/-! ## The second layer's host lines -/

theorem b8_v80 : W8 m ρ c (Proc.devRef .tc main_v80) = val_main_v91 (a0 m c) (a1 m c) (a3 m c) (a4 m c) (a5 m c) (a6 m c) (a7 m c) (a8 m c) :=
  s3_v80 (W7 m ρ c) (a0 m c) (a1 m c) (a3 m c) (a4 m c) (a5 m c) (a6 m c) (a7 m c) (a8 m c) (b7_v3 m ρ c) (b7_v7 m ρ c) (b7_v31 m ρ c) (b7_v64 m ρ c) (b7_arg8 m ρ c)
theorem b8_v91 : W8 m ρ c (Proc.devRef .tc main_v91) = shapeCast S1x128 (val_main_v94 (a0 m c) (a1 m c) (a3 m c) (a4 m c) (a5 m c) (a6 m c) (a7 m c) (a8 m c)) shapeCasts_S128_S1x128 :=
  s3_v91 (W7 m ρ c) (a0 m c) (a1 m c) (a3 m c) (a4 m c) (a5 m c) (a6 m c) (a7 m c) (a8 m c) (b7_v3 m ρ c) (b7_v7 m ρ c) (b7_v31 m ρ c) (b7_v64 m ρ c) (b7_arg8 m ρ c)
theorem b8_v92 : W8 m ρ c (Proc.devRef .tc main_v92) = shapeCast S1x128 (val_main_v101 (a0 m c) (a1 m c) (a3 m c) (a4 m c) (a5 m c) (a6 m c) (a7 m c) (a8 m c)) shapeCasts_S128_S1x128 :=
  s3_v92 (W7 m ρ c) (a0 m c) (a1 m c) (a3 m c) (a4 m c) (a5 m c) (a6 m c) (a7 m c) (a8 m c) (b7_v3 m ρ c) (b7_v7 m ρ c) (b7_v31 m ρ c) (b7_v64 m ρ c) (b7_arg8 m ρ c)
theorem b8_v93 : W8 m ρ c (Proc.devRef .tc main_v93) = shapeCast S1x128 (a9 m c) shapeCasts_S128_S1x128 :=
  s3_v93 (W7 m ρ c) (a9 m c) (b7_arg9 m ρ c)
theorem b8_v94 : W8 m ρ c (Proc.devRef .tc main_v94) = shapeCast S1x128 (a10 m c) shapeCasts_S128_S1x128 :=
  s3_v94 (W7 m ρ c) (a10 m c) (b7_arg10 m ρ c)
theorem b8_v3 : W8 m ρ c (Proc.devRef .tc main_v3) = val_main_v3 (a1 m c) :=
  (k3_v3 (W7 m ρ c)).trans (b7_v3 m ρ c)
theorem b8_v7 : W8 m ρ c (Proc.devRef .tc main_v7) = val_main_v7 (a1 m c) :=
  (k3_v7 (W7 m ρ c)).trans (b7_v7 m ρ c)
theorem b8_v31 : W8 m ρ c (Proc.devRef .tc main_v31) = val_main_v31 (a1 m c) :=
  (k3_v31 (W7 m ρ c)).trans (b7_v31 m ρ c)
theorem b8_arg2 : W8 m ρ c (Proc.devRef .tc main_arg2) = a2 m c :=
  (k3_arg2 (W7 m ρ c)).trans (b7_arg2 m ρ c)
theorem b8_arg11 : W8 m ρ c (Proc.devRef .tc main_arg11) = a11 m c :=
  (k3_arg11 (W7 m ρ c)).trans (b7_arg11 m ρ c)
theorem b8_arg12 : W8 m ρ c (Proc.devRef .tc main_arg12) = a12 m c :=
  (k3_arg12 (W7 m ρ c)).trans (b7_arg12 m ρ c)
theorem b8_arg13 : W8 m ρ c (Proc.devRef .tc main_arg13) = a13 m c :=
  (k3_arg13 (W7 m ρ c)).trans (b7_arg13 m ρ c)
theorem b8_arg14 : W8 m ρ c (Proc.devRef .tc main_arg14) = a14 m c :=
  (k3_arg14 (W7 m ρ c)).trans (b7_arg14 m ρ c)
theorem b8_arg15 : W8 m ρ c (Proc.devRef .tc main_arg15) = a15 m c :=
  (k3_arg15 (W7 m ρ c)).trans (b7_arg15 m ρ c)
theorem b8_arg16 : W8 m ρ c (Proc.devRef .tc main_arg16) = a16 m c :=
  (k3_arg16 (W7 m ρ c)).trans (b7_arg16 m ρ c)

/-! ## Region 3: a normalisation -/

theorem b9_v95 : W9 m ρ c (Proc.devRef .tc main_v95) = val_main_v117 (a0 m c) (a1 m c) (a3 m c) (a4 m c) (a5 m c) (a6 m c) (a7 m c) (a8 m c) (a9 m c) (a10 m c) := by
  refine (W9_arr m ρ c 5).trans ((bn3 (V8 m ρ) c).trans ?_)
  show Cert.Spec.bn (W8 m ρ c (Proc.devRef .tc main_v80)) (W8 m ρ c (Proc.devRef .tc main_v91)) (W8 m ρ c (Proc.devRef .tc main_v92)) (W8 m ρ c (Proc.devRef .tc main_v93)) (W8 m ρ c (Proc.devRef .tc main_v94)) = _
  rw [b8_v80 m ρ c, b8_v91 m ρ c, b8_v92 m ρ c, b8_v93 m ρ c, b8_v94 m ρ c]
  rw [cast_row, cast_row, cast_row, cast_row]
  exact (ref_bn117 _ _ _ _ _ _ _ _ _ _).symm
theorem b9_v3 : W9 m ρ c (Proc.devRef .tc main_v3) = val_main_v3 (a1 m c) :=
  (W9_of_ne m ρ c main_v3 (by decide)).trans (b8_v3 m ρ c)
theorem b9_v7 : W9 m ρ c (Proc.devRef .tc main_v7) = val_main_v7 (a1 m c) :=
  (W9_of_ne m ρ c main_v7 (by decide)).trans (b8_v7 m ρ c)
theorem b9_v31 : W9 m ρ c (Proc.devRef .tc main_v31) = val_main_v31 (a1 m c) :=
  (W9_of_ne m ρ c main_v31 (by decide)).trans (b8_v31 m ρ c)
theorem b9_arg2 : W9 m ρ c (Proc.devRef .tc main_arg2) = a2 m c :=
  (W9_of_ne m ρ c main_arg2 (by decide)).trans (b8_arg2 m ρ c)
theorem b9_arg11 : W9 m ρ c (Proc.devRef .tc main_arg11) = a11 m c :=
  (W9_of_ne m ρ c main_arg11 (by decide)).trans (b8_arg11 m ρ c)
theorem b9_arg12 : W9 m ρ c (Proc.devRef .tc main_arg12) = a12 m c :=
  (W9_of_ne m ρ c main_arg12 (by decide)).trans (b8_arg12 m ρ c)
theorem b9_arg13 : W9 m ρ c (Proc.devRef .tc main_arg13) = a13 m c :=
  (W9_of_ne m ρ c main_arg13 (by decide)).trans (b8_arg13 m ρ c)
theorem b9_arg14 : W9 m ρ c (Proc.devRef .tc main_arg14) = a14 m c :=
  (W9_of_ne m ρ c main_arg14 (by decide)).trans (b8_arg14 m ρ c)
theorem b9_arg15 : W9 m ρ c (Proc.devRef .tc main_arg15) = a15 m c :=
  (W9_of_ne m ρ c main_arg15 (by decide)).trans (b8_arg15 m ρ c)
theorem b9_arg16 : W9 m ρ c (Proc.devRef .tc main_arg16) = a16 m c :=
  (W9_of_ne m ρ c main_arg16 (by decide)).trans (b8_arg16 m ρ c)

/-! ## Region 4: a projection -/

theorem b10_v96 : W10 m ρ c (Proc.devRef .tc main_v96) = val_main_v118 (a0 m c) (a1 m c) (a3 m c) (a4 m c) (a5 m c) (a6 m c) (a7 m c) (a8 m c) (a9 m c) (a10 m c) (a11 m c) := by
  refine (W10_arr m ρ c 2).trans ((mm4 (V9 m ρ) c).trans ?_)
  show Cert.Spec.mm (W9 m ρ c (Proc.devRef .tc main_v95)) (W9 m ρ c (Proc.devRef .tc main_arg11)) = _
  rw [b9_v95 m ρ c, b9_arg11 m ρ c]
  exact (ref_mm118 _ _ _ _ _ _ _ _ _ _ _).symm
theorem b10_v3 : W10 m ρ c (Proc.devRef .tc main_v3) = val_main_v3 (a1 m c) :=
  (W10_of_ne m ρ c main_v3 (by decide)).trans (b9_v3 m ρ c)
theorem b10_v7 : W10 m ρ c (Proc.devRef .tc main_v7) = val_main_v7 (a1 m c) :=
  (W10_of_ne m ρ c main_v7 (by decide)).trans (b9_v7 m ρ c)
theorem b10_v31 : W10 m ρ c (Proc.devRef .tc main_v31) = val_main_v31 (a1 m c) :=
  (W10_of_ne m ρ c main_v31 (by decide)).trans (b9_v31 m ρ c)
theorem b10_arg2 : W10 m ρ c (Proc.devRef .tc main_arg2) = a2 m c :=
  (W10_of_ne m ρ c main_arg2 (by decide)).trans (b9_arg2 m ρ c)
theorem b10_arg12 : W10 m ρ c (Proc.devRef .tc main_arg12) = a12 m c :=
  (W10_of_ne m ρ c main_arg12 (by decide)).trans (b9_arg12 m ρ c)
theorem b10_arg13 : W10 m ρ c (Proc.devRef .tc main_arg13) = a13 m c :=
  (W10_of_ne m ρ c main_arg13 (by decide)).trans (b9_arg13 m ρ c)
theorem b10_arg14 : W10 m ρ c (Proc.devRef .tc main_arg14) = a14 m c :=
  (W10_of_ne m ρ c main_arg14 (by decide)).trans (b9_arg14 m ρ c)
theorem b10_arg15 : W10 m ρ c (Proc.devRef .tc main_arg15) = a15 m c :=
  (W10_of_ne m ρ c main_arg15 (by decide)).trans (b9_arg15 m ρ c)
theorem b10_arg16 : W10 m ρ c (Proc.devRef .tc main_arg16) = a16 m c :=
  (W10_of_ne m ρ c main_arg16 (by decide)).trans (b9_arg16 m ρ c)

/-! ## The third layer's host lines -/

theorem b11_v112 : W11 m ρ c (Proc.devRef .tc main_v112) = val_main_v134 (a0 m c) (a1 m c) (a3 m c) (a4 m c) (a5 m c) (a6 m c) (a7 m c) (a8 m c) (a9 m c) (a10 m c) (a11 m c) (a12 m c) :=
  s5_v112 (W10 m ρ c) (a0 m c) (a1 m c) (a3 m c) (a4 m c) (a5 m c) (a6 m c) (a7 m c) (a8 m c) (a9 m c) (a10 m c) (a11 m c) (a12 m c) (b10_v3 m ρ c) (b10_v7 m ρ c) (b10_v31 m ρ c) (b10_v96 m ρ c) (b10_arg12 m ρ c)
theorem b11_v123 : W11 m ρ c (Proc.devRef .tc main_v123) = shapeCast S1x128 (val_main_v137 (a0 m c) (a1 m c) (a3 m c) (a4 m c) (a5 m c) (a6 m c) (a7 m c) (a8 m c) (a9 m c) (a10 m c) (a11 m c) (a12 m c)) shapeCasts_S128_S1x128 :=
  s5_v123 (W10 m ρ c) (a0 m c) (a1 m c) (a3 m c) (a4 m c) (a5 m c) (a6 m c) (a7 m c) (a8 m c) (a9 m c) (a10 m c) (a11 m c) (a12 m c) (b10_v3 m ρ c) (b10_v7 m ρ c) (b10_v31 m ρ c) (b10_v96 m ρ c) (b10_arg12 m ρ c)
theorem b11_v124 : W11 m ρ c (Proc.devRef .tc main_v124) = shapeCast S1x128 (val_main_v144 (a0 m c) (a1 m c) (a3 m c) (a4 m c) (a5 m c) (a6 m c) (a7 m c) (a8 m c) (a9 m c) (a10 m c) (a11 m c) (a12 m c)) shapeCasts_S128_S1x128 :=
  s5_v124 (W10 m ρ c) (a0 m c) (a1 m c) (a3 m c) (a4 m c) (a5 m c) (a6 m c) (a7 m c) (a8 m c) (a9 m c) (a10 m c) (a11 m c) (a12 m c) (b10_v3 m ρ c) (b10_v7 m ρ c) (b10_v31 m ρ c) (b10_v96 m ρ c) (b10_arg12 m ρ c)
theorem b11_v125 : W11 m ρ c (Proc.devRef .tc main_v125) = shapeCast S1x128 (a13 m c) shapeCasts_S128_S1x128 :=
  s5_v125 (W10 m ρ c) (a13 m c) (b10_arg13 m ρ c)
theorem b11_v126 : W11 m ρ c (Proc.devRef .tc main_v126) = shapeCast S1x128 (a14 m c) shapeCasts_S128_S1x128 :=
  s5_v126 (W10 m ρ c) (a14 m c) (b10_arg14 m ρ c)
theorem b11_arg2 : W11 m ρ c (Proc.devRef .tc main_arg2) = a2 m c :=
  (k5_arg2 (W10 m ρ c)).trans (b10_arg2 m ρ c)
theorem b11_arg15 : W11 m ρ c (Proc.devRef .tc main_arg15) = a15 m c :=
  (k5_arg15 (W10 m ρ c)).trans (b10_arg15 m ρ c)
theorem b11_arg16 : W11 m ρ c (Proc.devRef .tc main_arg16) = a16 m c :=
  (k5_arg16 (W10 m ρ c)).trans (b10_arg16 m ρ c)

/-! ## Region 5: a normalisation -/

theorem b12_v127 : W12 m ρ c (Proc.devRef .tc main_v127) = val_main_v160 (a0 m c) (a1 m c) (a3 m c) (a4 m c) (a5 m c) (a6 m c) (a7 m c) (a8 m c) (a9 m c) (a10 m c) (a11 m c) (a12 m c) (a13 m c) (a14 m c) := by
  refine (W12_arr m ρ c 5).trans ((bn5 (V11 m ρ) c).trans ?_)
  show Cert.Spec.bn (W11 m ρ c (Proc.devRef .tc main_v112)) (W11 m ρ c (Proc.devRef .tc main_v123)) (W11 m ρ c (Proc.devRef .tc main_v124)) (W11 m ρ c (Proc.devRef .tc main_v125)) (W11 m ρ c (Proc.devRef .tc main_v126)) = _
  rw [b11_v112 m ρ c, b11_v123 m ρ c, b11_v124 m ρ c, b11_v125 m ρ c, b11_v126 m ρ c]
  rw [cast_row, cast_row, cast_row, cast_row]
  exact (ref_bn160 _ _ _ _ _ _ _ _ _ _ _ _ _ _).symm
theorem b12_arg2 : W12 m ρ c (Proc.devRef .tc main_arg2) = a2 m c :=
  (W12_of_ne m ρ c main_arg2 (by decide)).trans (b11_arg2 m ρ c)
theorem b12_arg15 : W12 m ρ c (Proc.devRef .tc main_arg15) = a15 m c :=
  (W12_of_ne m ρ c main_arg15 (by decide)).trans (b11_arg15 m ρ c)
theorem b12_arg16 : W12 m ρ c (Proc.devRef .tc main_arg16) = a16 m c :=
  (W12_of_ne m ρ c main_arg16 (by decide)).trans (b11_arg16 m ρ c)

/-! ## The pooling lines -/

theorem b13_v139 : W13 m ρ c (Proc.devRef .tc main_v139) = val_main_v172 (a0 m c) (a1 m c) (a2 m c) (a3 m c) (a4 m c) (a5 m c) (a6 m c) (a7 m c) (a8 m c) (a9 m c) (a10 m c) (a11 m c) (a12 m c) (a13 m c) (a14 m c) :=
  s6_v139 (W12 m ρ c) (a0 m c) (a1 m c) (a2 m c) (a3 m c) (a4 m c) (a5 m c) (a6 m c) (a7 m c) (a8 m c) (a9 m c) (a10 m c) (a11 m c) (a12 m c) (a13 m c) (a14 m c) (b12_v127 m ρ c) (b12_arg2 m ρ c)
theorem b13_v140 : W13 m ρ c (Proc.devRef .tc main_v140) = shapeCast S1x1 (a16 m c) shapeCasts_S1_S1x1 :=
  s6_v140 (W12 m ρ c) (a16 m c) (b12_arg16 m ρ c)
theorem b13_arg15 : W13 m ρ c (Proc.devRef .tc main_arg15) = a15 m c :=
  (k6_arg15 (W12 m ρ c)).trans (b12_arg15 m ρ c)

/-! ## Region 6: the read-out -/

/-- The kernel's result buffer at the last boundary holds the reference's last stage of the launch arguments. -/
theorem result_eq : W14 m ρ c (Proc.devRef .tc main_v141) = val_main_v176 (a0 m c) (a1 m c) (a2 m c) (a3 m c) (a4 m c) (a5 m c) (a6 m c) (a7 m c) (a8 m c) (a9 m c) (a10 m c) (a11 m c) (a12 m c) (a13 m c) (a14 m c) (a15 m c) (a16 m c) := by
  refine (W14_arr m ρ c 3).trans ((lin6 (V13 m ρ) c).trans ?_)
  show Cert.Spec.lin (W13 m ρ c (Proc.devRef .tc main_v139)) (W13 m ρ c (Proc.devRef .tc main_arg15)) (W13 m ρ c (Proc.devRef .tc main_v140)) = _
  rw [b13_v139 m ρ c, b13_arg15 m ρ c, b13_v140 m ρ c]
  rw [cast_row]
  exact (ref_lin176 _ _ _ _ _ _ _ _ _ _ _ _ _ _ _ _ _).symm

end Cert.Chain

end
-- ==== Proof.RefFold.lean ====
/-
  The reference's run read back.

  The reference is one straight line of 222 host operations, so its run ends with every buffer at the fold of the
  operations' results over the launch contents. The stages name each operation's value as a function of the
  arguments, each defined from the stages of its operands. The line is cut after each projection into five
  windows; read through a window from any contents that hold the earlier stages, the window's last projection (or
  the result) is its stage, and the buffers a later window reads keep their contents. Window by window, the result
  buffer holds the last stage of the contents the fold starts from at the argument buffers. No operation writes an
  argument buffer.
-/
import proofs.«127011_j4758823764123_1_alg».proof.Proof.RunP
import proofs.«127011_j4758823764123_1_alg».proof.Proof.ReadP
import proofs.«127011_j4758823764123_1_alg».proof.Proof.LibCat

noncomputable section

namespace Cert.RefFold

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The five windows -/

/-- Operations 0 to 43 of the reference's @main. -/
abbrev w0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    nullary main_v2 (iotaInDim S100000 32 0),
    binary main_v1 main_v2 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    nullary main_v6 (iotaInDim S100000 32 0),
    binary main_v5 main_v6 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0xBF000000#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (Host.powf : (⟨S100000, .f32⟩ : BufTy).Contents (Elt F) → (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v7 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v7 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v7 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg3 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 44 to 96 of the reference's @main. -/
abbrev w1 : List (HloOp τ sig (Elt F)) :=
  [ nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v7 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v48 main_cst_10 main_v49 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v50 (broadcastInDim S128 ![] bcast_S_S128 : (⟨S_, .f32⟩ : BufTy).Contents (Elt F) → (⟨S128, .f32⟩ : BufTy).Contents (Elt F)),
    binary main_v49 main_v50 main_v51 (Host.divf : (⟨S128, .f32⟩ : BufTy).Contents (Elt F) → (⟨S128, .f32⟩ : BufTy).Contents (Elt F) → (⟨S128, .f32⟩ : BufTy).Contents (Elt F)),
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S100000x128 ![0, 1] bcast_S1x128_S100000x128_0_1 : (⟨S1x128, .f32⟩ : BufTy).Contents (Elt F) → (⟨S100000x128, .f32⟩ : BufTy).Contents (Elt F)),
    binary main_v48 main_v53 main_v54 (subf : (⟨S100000x128, .f32⟩ : BufTy).Contents (Elt F) → (⟨S100000x128, .f32⟩ : BufTy).Contents (Elt F) → (⟨S100000x128, .f32⟩ : BufTy).Contents (Elt F)),
    binary main_v54 main_v54 main_v55 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v55 main_cst_12 main_v56 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_13 (constant S_ .f32 0x47C35000#32),
    unary main_cst_13 main_v57 (broadcastInDim S128 ![] bcast_S_S128 : (⟨S_, .f32⟩ : BufTy).Contents (Elt F) → (⟨S128, .f32⟩ : BufTy).Contents (Elt F)),
    binary main_v56 main_v57 main_v58 (Host.divf : (⟨S128, .f32⟩ : BufTy).Contents (Elt F) → (⟨S128, .f32⟩ : BufTy).Contents (Elt F) → (⟨S128, .f32⟩ : BufTy).Contents (Elt F)),
    unary main_v51 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v48 main_v60 main_v61 (subf : (⟨S100000x128, .f32⟩ : BufTy).Contents (Elt F) → (⟨S100000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v63 main_v61 main_v64 (mulf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v65 (broadcastInDim S128 ![] bcast_S_S128 : (⟨S_, .f32⟩ : BufTy).Contents (Elt F) → (⟨S128, .f32⟩ : BufTy).Contents (Elt F)),
    binary main_v58 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg6 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v73) (TRef.of (T := ⟨S100000x128, .f32⟩) main_call1_v0) (TRef.of (T := ⟨S100000x128, .f32⟩) main_v74) maximumf,
    binary main_v74 main_arg7 main_v75 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 97 to 149 of the reference's @main. -/
abbrev w2 : List (HloOp τ sig (Elt F)) :=
  [ nullary main_c_15 (constantI S_ 32 0#32),
    unary main_c_15 main_v76 (broadcastInDim S1700000 ![] bcast_S_S1700000 : (⟨S_, .i32⟩ : BufTy).Contents (Elt F) → (⟨S1700000, .i32⟩ : BufTy).Contents (Elt F)),
    binary main_v3 main_v76 main_v77 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v78 (broadcastInDim S1700000 ![] bcast_S_S1700000 : (⟨S_, .i32⟩ : BufTy).Contents (Elt F) → (⟨S1700000, .i32⟩ : BufTy).Contents (Elt F)),
    binary main_v3 main_v78 main_v79 (addi : (⟨S1700000, .i32⟩ : BufTy).Contents (Elt F) → (⟨S1700000, .i32⟩ : BufTy).Contents (Elt F) → (⟨S1700000, .i32⟩ : BufTy).Contents (Elt F)),
    ternary main_v77 main_v79 main_v3 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v80 main_v81 (broadcastInDim S1700000x1 ![0] bcast_S1700000_S1700000x1_0 : (⟨S1700000, .i32⟩ : BufTy).Contents (Elt F) → (⟨S1700000x1, .i32⟩ : BufTy).Contents (Elt F)),
    binary main_v75 main_v81 main_v82 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v83 (broadcastInDim S1700000x1 ![0] bcast_S1700000_S1700000x1_0 : (⟨S1700000, .f32⟩ : BufTy).Contents (Elt F) → (⟨S1700000x1, .f32⟩ : BufTy).Contents (Elt F)),
    unary main_v83 main_v84 (broadcastInDim S1700000x128 ![0, 1] bcast_S1700000x1_S1700000x128_0_1 : (⟨S1700000x1, .f32⟩ : BufTy).Contents (Elt F) → (⟨S1700000x128, .f32⟩ : BufTy).Contents (Elt F)),
    binary main_v82 main_v84 main_v85 (mulf : (⟨S1700000x128, .f32⟩ : BufTy).Contents (Elt F) → (⟨S1700000x128, .f32⟩ : BufTy).Contents (Elt F) → (⟨S1700000x128, .f32⟩ : BufTy).Contents (Elt F)),
    nullary main_cst_17 (constant S_ .f32 0x00000000#32),
    unary main_cst_17 main_v86 (broadcastInDim S100000x128 ![] bcast_S_S100000x128 : (⟨S_, .f32⟩ : BufTy).Contents (Elt F) → (⟨S100000x128, .f32⟩ : BufTy).Contents (Elt F)),
    unary main_v7 main_v87 (broadcastInDim S1700000x1 ![0] bcast_S1700000_S1700000x1_0 : (⟨S1700000, .i32⟩ : BufTy).Contents (Elt F) → (⟨S1700000x1, .i32⟩ : BufTy).Contents (Elt F)),
    ternary main_v86 main_v87 main_v85 main_v88 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg8 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v88 main_v90 main_v91 (addf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v91 main_cst_18 main_v92 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v93 (broadcastInDim S128 ![] bcast_S_S128 : (⟨S_, .f32⟩ : BufTy).Contents (Elt F) → (⟨S128, .f32⟩ : BufTy).Contents (Elt F)),
    binary main_v92 main_v93 main_v94 (Host.divf : (⟨S128, .f32⟩ : BufTy).Contents (Elt F) → (⟨S128, .f32⟩ : BufTy).Contents (Elt F) → (⟨S128, .f32⟩ : BufTy).Contents (Elt F)),
    unary main_v94 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v91 main_v96 main_v97 (subf : (⟨S100000x128, .f32⟩ : BufTy).Contents (Elt F) → (⟨S100000x128, .f32⟩ : BufTy).Contents (Elt F) → (⟨S100000x128, .f32⟩ : BufTy).Contents (Elt F)),
    binary main_v97 main_v97 main_v98 (mulf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x00000000#32),
    binary main_v98 main_cst_20 main_v99 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_21 (constant S_ .f32 0x47C35000#32),
    unary main_cst_21 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)),
    unary main_v94 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v91 main_v103 main_v104 (subf : (⟨S100000x128, .f32⟩ : BufTy).Contents (Elt F) → (⟨S100000x128, .f32⟩ : BufTy).Contents (Elt F) → (⟨S100000x128, .f32⟩ : BufTy).Contents (Elt F)),
    unary main_arg9 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v106 main_v104 main_v107 (mulf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3727C5AC#32),
    unary main_cst_22 main_v108 (broadcastInDim S128 ![] bcast_S_S128 : (⟨S_, .f32⟩ : BufTy).Contents (Elt F) → (⟨S128, .f32⟩ : BufTy).Contents (Elt F)),
    binary main_v101 main_v108 main_v109 (addf : (⟨S128, .f32⟩ : BufTy).Contents (Elt F) → (⟨S128, .f32⟩ : BufTy).Contents (Elt F) → (⟨S128, .f32⟩ : BufTy).Contents (Elt F)),
    unary main_v109 main_v110 (Host.rsqrt : (⟨S128, .f32⟩ : BufTy).Contents (Elt F) → (⟨S128, .f32⟩ : BufTy).Contents (Elt F)),
    unary main_v110 main_v111 (broadcastInDim S1x128 ![1] bcast_S128_S1x128_1 : (⟨S128, .f32⟩ : BufTy).Contents (Elt F) → (⟨S1x128, .f32⟩ : BufTy).Contents (Elt F)),
    unary main_v111 main_v112 (broadcastInDim S100000x128 ![0, 1] bcast_S1x128_S100000x128_0_1 : (⟨S1x128, .f32⟩ : BufTy).Contents (Elt F) → (⟨S100000x128, .f32⟩ : BufTy).Contents (Elt F)),
    binary main_v107 main_v112 main_v113 (mulf : (⟨S100000x128, .f32⟩ : BufTy).Contents (Elt F) → (⟨S100000x128, .f32⟩ : BufTy).Contents (Elt F) → (⟨S100000x128, .f32⟩ : BufTy).Contents (Elt F)),
    unary main_arg10 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v113 main_v115 main_v116 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v116) (TRef.of (T := ⟨S100000x128, .f32⟩) main_call2_v0) (TRef.of (T := ⟨S100000x128, .f32⟩) main_v117) maximumf,
    binary main_v117 main_arg11 main_v118 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 150 to 201 of the reference's @main. -/
abbrev w3 : List (HloOp τ sig (Elt F)) :=
  [ nullary main_c_23 (constantI S_ 32 0#32),
    unary main_c_23 main_v119 (broadcastInDim S1700000 ![] bcast_S_S1700000 : (⟨S_, .i32⟩ : BufTy).Contents (Elt F) → (⟨S1700000, .i32⟩ : BufTy).Contents (Elt F)),
    binary main_v3 main_v119 main_v120 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v121 (broadcastInDim S1700000 ![] bcast_S_S1700000 : (⟨S_, .i32⟩ : BufTy).Contents (Elt F) → (⟨S1700000, .i32⟩ : BufTy).Contents (Elt F)),
    binary main_v3 main_v121 main_v122 (addi : (⟨S1700000, .i32⟩ : BufTy).Contents (Elt F) → (⟨S1700000, .i32⟩ : BufTy).Contents (Elt F) → (⟨S1700000, .i32⟩ : BufTy).Contents (Elt F)),
    ternary main_v120 main_v122 main_v3 main_v123 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v123 main_v124 (broadcastInDim S1700000x1 ![0] bcast_S1700000_S1700000x1_0 : (⟨S1700000, .i32⟩ : BufTy).Contents (Elt F) → (⟨S1700000x1, .i32⟩ : BufTy).Contents (Elt F)),
    binary main_v118 main_v124 main_v125 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v126 (broadcastInDim S1700000x1 ![0] bcast_S1700000_S1700000x1_0 : (⟨S1700000, .f32⟩ : BufTy).Contents (Elt F) → (⟨S1700000x1, .f32⟩ : BufTy).Contents (Elt F)),
    unary main_v126 main_v127 (broadcastInDim S1700000x128 ![0, 1] bcast_S1700000x1_S1700000x128_0_1 : (⟨S1700000x1, .f32⟩ : BufTy).Contents (Elt F) → (⟨S1700000x128, .f32⟩ : BufTy).Contents (Elt F)),
    binary main_v125 main_v127 main_v128 (mulf : (⟨S1700000x128, .f32⟩ : BufTy).Contents (Elt F) → (⟨S1700000x128, .f32⟩ : BufTy).Contents (Elt F) → (⟨S1700000x128, .f32⟩ : BufTy).Contents (Elt F)),
    nullary main_cst_25 (constant S_ .f32 0x00000000#32),
    unary main_cst_25 main_v129 (broadcastInDim S100000x128 ![] bcast_S_S100000x128 : (⟨S_, .f32⟩ : BufTy).Contents (Elt F) → (⟨S100000x128, .f32⟩ : BufTy).Contents (Elt F)),
    unary main_v7 main_v130 (broadcastInDim S1700000x1 ![0] bcast_S1700000_S1700000x1_0 : (⟨S1700000, .i32⟩ : BufTy).Contents (Elt F) → (⟨S1700000x1, .i32⟩ : BufTy).Contents (Elt F)),
    ternary main_v129 main_v130 main_v128 main_v131 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg12 main_v132 (broadcastInDim S1x128 ![1] bcast_S128_S1x128_1 : (⟨S128, .f32⟩ : BufTy).Contents (Elt F) → (⟨S1x128, .f32⟩ : BufTy).Contents (Elt F)),
    unary main_v132 main_v133 (broadcastInDim S100000x128 ![0, 1] bcast_S1x128_S100000x128_0_1 : (⟨S1x128, .f32⟩ : BufTy).Contents (Elt F) → (⟨S100000x128, .f32⟩ : BufTy).Contents (Elt F)),
    binary main_v131 main_v133 main_v134 (addf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v134 main_cst_26 main_v135 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v136 (broadcastInDim S128 ![] bcast_S_S128 : (⟨S_, .f32⟩ : BufTy).Contents (Elt F) → (⟨S128, .f32⟩ : BufTy).Contents (Elt F)),
    binary main_v135 main_v136 main_v137 (Host.divf : (⟨S128, .f32⟩ : BufTy).Contents (Elt F) → (⟨S128, .f32⟩ : BufTy).Contents (Elt F) → (⟨S128, .f32⟩ : BufTy).Contents (Elt F)),
    unary main_v137 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v134 main_v139 main_v140 (subf : (⟨S100000x128, .f32⟩ : BufTy).Contents (Elt F) → (⟨S100000x128, .f32⟩ : BufTy).Contents (Elt F) → (⟨S100000x128, .f32⟩ : BufTy).Contents (Elt F)),
    binary main_v140 main_v140 main_v141 (mulf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x00000000#32),
    binary main_v141 main_cst_28 main_v142 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_29 (constant S_ .f32 0x47C35000#32),
    unary main_cst_29 main_v143 (broadcastInDim S128 ![] bcast_S_S128 : (⟨S_, .f32⟩ : BufTy).Contents (Elt F) → (⟨S128, .f32⟩ : BufTy).Contents (Elt F)),
    binary main_v142 main_v143 main_v144 (Host.divf : (⟨S128, .f32⟩ : BufTy).Contents (Elt F) → (⟨S128, .f32⟩ : BufTy).Contents (Elt F) → (⟨S128, .f32⟩ : BufTy).Contents (Elt F)),
    unary main_v137 main_v145 (broadcastInDim S1x128 ![1] bcast_S128_S1x128_1 : (⟨S128, .f32⟩ : BufTy).Contents (Elt F) → (⟨S1x128, .f32⟩ : BufTy).Contents (Elt F)),
    unary main_v145 main_v146 (broadcastInDim S100000x128 ![0, 1] bcast_S1x128_S100000x128_0_1 : (⟨S1x128, .f32⟩ : BufTy).Contents (Elt F) → (⟨S100000x128, .f32⟩ : BufTy).Contents (Elt F)),
    binary main_v134 main_v146 main_v147 (subf : (⟨S100000x128, .f32⟩ : BufTy).Contents (Elt F) → (⟨S100000x128, .f32⟩ : BufTy).Contents (Elt F) → (⟨S100000x128, .f32⟩ : BufTy).Contents (Elt F)),
    unary main_arg13 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v149 main_v147 main_v150 (mulf : (⟨S100000x128, .f32⟩ : BufTy).Contents (Elt F) → (⟨S100000x128, .f32⟩ : BufTy).Contents (Elt F) → (⟨S100000x128, .f32⟩ : BufTy).Contents (Elt F)),
    nullary main_cst_30 (constant S_ .f32 0x3727C5AC#32),
    unary main_cst_30 main_v151 (broadcastInDim S128 ![] bcast_S_S128 : (⟨S_, .f32⟩ : BufTy).Contents (Elt F) → (⟨S128, .f32⟩ : BufTy).Contents (Elt F)),
    binary main_v144 main_v151 main_v152 (addf : (⟨S128, .f32⟩ : BufTy).Contents (Elt F) → (⟨S128, .f32⟩ : BufTy).Contents (Elt F) → (⟨S128, .f32⟩ : BufTy).Contents (Elt F)),
    unary main_v152 main_v153 (Host.rsqrt : (⟨S128, .f32⟩ : BufTy).Contents (Elt F) → (⟨S128, .f32⟩ : BufTy).Contents (Elt F)),
    unary main_v153 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v150 main_v155 main_v156 (mulf : (⟨S100000x128, .f32⟩ : BufTy).Contents (Elt F) → (⟨S100000x128, .f32⟩ : BufTy).Contents (Elt F) → (⟨S100000x128, .f32⟩ : BufTy).Contents (Elt F)),
    unary main_arg14 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v156 main_v158 main_v159 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v159) (TRef.of (T := ⟨S100000x128, .f32⟩) main_call3_v0) (TRef.of (T := ⟨S100000x128, .f32⟩) main_v160) maximumf ]

/-- Operations 202 to 221 of the reference's @main. -/
abbrev w4 : List (HloOp τ sig (Elt F)) :=
  [ nullary main_cst_31 (constant S_ .f32 0x00000000#32),
    unary main_cst_31 main_v161 (broadcastInDim S256x128 ![] bcast_S_S256x128 : (⟨S_, .f32⟩ : BufTy).Contents (Elt F) → (⟨S256x128, .f32⟩ : BufTy).Contents (Elt F)),
    unary main_arg2 main_v162 (broadcastInDim S100000x1 ![0] bcast_S100000_S100000x1_0 : (⟨S100000, .i32⟩ : BufTy).Contents (Elt F) → (⟨S100000x1, .i32⟩ : BufTy).Contents (Elt F)),
    ternary main_v161 main_v162 main_v160 main_v163 ((fun x i u => Host.scatterAdd scatter_S256x128_S100000x1_S100000x128_1_0_0_1 x i u) : (⟨S256x128, .f32⟩ : BufTy).Contents (Elt F) → (⟨S100000x1, .i32⟩ : BufTy).Contents (Elt F) → (⟨S100000x128, .f32⟩ : BufTy).Contents (Elt F) → (⟨S256x128, .f32⟩ : BufTy).Contents (Elt F)),
    nullary main_cst_32 (constant S_ .f32 0x3F800000#32),
    unary main_cst_32 main_v164 (broadcastInDim S100000 ![] bcast_S_S100000 : (⟨S_, .f32⟩ : BufTy).Contents (Elt F) → (⟨S100000, .f32⟩ : BufTy).Contents (Elt F)),
    nullary main_cst_33 (constant S_ .f32 0x00000000#32),
    unary main_cst_33 main_v165 (broadcastInDim S256 ![] bcast_S_S256 : (⟨S_, .f32⟩ : BufTy).Contents (Elt F) → (⟨S256, .f32⟩ : BufTy).Contents (Elt F)),
    unary main_arg2 main_v166 (broadcastInDim S100000x1 ![0] bcast_S100000_S100000x1_0 : (⟨S100000, .i32⟩ : BufTy).Contents (Elt F) → (⟨S100000x1, .i32⟩ : BufTy).Contents (Elt F)),
    ternary main_v165 main_v166 main_v164 main_v167 ((fun x i u => Host.scatterAdd scatter_S256_S100000x1_S100000_n_0_0_1 x i u) : (⟨S256, .f32⟩ : BufTy).Contents (Elt F) → (⟨S100000x1, .i32⟩ : BufTy).Contents (Elt F) → (⟨S100000, .f32⟩ : BufTy).Contents (Elt F) → (⟨S256, .f32⟩ : BufTy).Contents (Elt F)),
    nullary main_cst_34 (constant S_ .f32 0x3F800000#32),
    unary main_cst_34 main_v168 (broadcastInDim S256 ![] bcast_S_S256 : (⟨S_, .f32⟩ : BufTy).Contents (Elt F) → (⟨S256, .f32⟩ : BufTy).Contents (Elt F)),
    binary main_v167 main_v168 main_v169 (maximumf : (⟨S256, .f32⟩ : BufTy).Contents (Elt F) → (⟨S256, .f32⟩ : BufTy).Contents (Elt F) → (⟨S256, .f32⟩ : BufTy).Contents (Elt F)),
    unary main_v169 main_v170 (broadcastInDim S256x1 ![0] bcast_S256_S256x1_0 : (⟨S256, .f32⟩ : BufTy).Contents (Elt F) → (⟨S256x1, .f32⟩ : BufTy).Contents (Elt F)),
    unary main_v170 main_v171 (broadcastInDim S256x128 ![0, 1] bcast_S256x1_S256x128_0_1 : (⟨S256x1, .f32⟩ : BufTy).Contents (Elt F) → (⟨S256x128, .f32⟩ : BufTy).Contents (Elt F)),
    binary main_v163 main_v171 main_v172 (Host.divf : (⟨S256x128, .f32⟩ : BufTy).Contents (Elt F) → (⟨S256x128, .f32⟩ : BufTy).Contents (Elt F) → (⟨S256x128, .f32⟩ : BufTy).Contents (Elt F)),
    binary main_v172 main_arg15 main_v173 ((fun l r => Host.dotGeneral dot_S256x128_S128x1_S256x1_1_0_0_1_n_n none l r) : (⟨S256x128, .f32⟩ : BufTy).Contents (Elt F) → (⟨S128x1, .f32⟩ : BufTy).Contents (Elt F) → (⟨S256x1, .f32⟩ : BufTy).Contents (Elt F)),
    unary main_arg16 main_v174 (broadcastInDim S1x1 ![1] bcast_S1_S1x1_1 : (⟨S1, .f32⟩ : BufTy).Contents (Elt F) → (⟨S1x1, .f32⟩ : BufTy).Contents (Elt F)),
    unary main_v174 main_v175 (broadcastInDim S256x1 ![0, 1] bcast_S1x1_S256x1_0_1 : (⟨S1x1, .f32⟩ : BufTy).Contents (Elt F) → (⟨S256x1, .f32⟩ : BufTy).Contents (Elt F)),
    binary main_v173 main_v175 main_v176 (addf : (⟨S256x1, .f32⟩ : BufTy).Contents (Elt F) → (⟨S256x1, .f32⟩ : BufTy).Contents (Elt F) → (⟨S256x1, .f32⟩ : BufTy).Contents (Elt F)) ]

/-- The reference's operations are the five windows in order. -/
theorem ops_eq : (Cert.ReferenceIdeal.ValueP.ops (F := F)) = w0 ++ (w1 ++ (w2 ++ (w3 ++ w4))) := rfl

/-! ## Each window, from any contents holding the earlier stages -/

theorem r0_v3 (W : Valuation τ sig (Elt F)) (x1 : (⟨S2x1600000, .i32⟩ : BufTy).Contents (Elt F))
    (g1 : W (Proc.devRef .tc main_arg1) = x1) :
    after w0 W (Proc.devRef .tc main_v3) = val_main_v3 x1 := by
  after_results_simp
  finish_results_rw
  try simp only [Cert.Lib.ofBuf_toBuf, Cert.Lib.toBuf_ofBuf]
  try rw [g1]
  rfl

theorem r0_v7 (W : Valuation τ sig (Elt F)) (x1 : (⟨S2x1600000, .i32⟩ : BufTy).Contents (Elt F))
    (g1 : W (Proc.devRef .tc main_arg1) = x1) :
    after w0 W (Proc.devRef .tc main_v7) = val_main_v7 x1 := by
  after_results_simp
  finish_results_rw
  try simp only [Cert.Lib.ofBuf_toBuf, Cert.Lib.toBuf_ofBuf]
  try rw [g1]
  rfl

theorem r0_v31 (W : Valuation τ sig (Elt F)) (x1 : (⟨S2x1600000, .i32⟩ : BufTy).Contents (Elt F))
    (g1 : W (Proc.devRef .tc main_arg1) = x1) :
    after w0 W (Proc.devRef .tc main_v31) = val_main_v31 x1 := by
  after_results_simp
  finish_results_rw
  try simp only [Cert.Lib.ofBuf_toBuf, Cert.Lib.toBuf_ofBuf]
  try rw [g1]
  rfl

theorem r0_v32 (W : Valuation τ sig (Elt F)) (x0 : (⟨S100000x128, .f32⟩ : BufTy).Contents (Elt F)) (x3 : (⟨S128x128, .f32⟩ : BufTy).Contents (Elt F))
    (g0 : W (Proc.devRef .tc main_arg0) = x0)
    (g3 : W (Proc.devRef .tc main_arg3) = x3) :
    after w0 W (Proc.devRef .tc main_v32) = val_main_v32 x0 x3 := by
  after_results_simp
  try simp only [Cert.Lib.ofBuf_toBuf, Cert.Lib.toBuf_ofBuf]
  try rw [g0]
  try rw [g3]
  rfl

theorem q0_arg2 (W : Valuation τ sig (Elt F)) : after w0 W (Proc.devRef .tc main_arg2) = W (Proc.devRef .tc main_arg2) := by
  after_results_simp

theorem q0_arg4 (W : Valuation τ sig (Elt F)) : after w0 W (Proc.devRef .tc main_arg4) = W (Proc.devRef .tc main_arg4) := by
  after_results_simp

theorem q0_arg5 (W : Valuation τ sig (Elt F)) : after w0 W (Proc.devRef .tc main_arg5) = W (Proc.devRef .tc main_arg5) := by
  after_results_simp

theorem q0_arg6 (W : Valuation τ sig (Elt F)) : after w0 W (Proc.devRef .tc main_arg6) = W (Proc.devRef .tc main_arg6) := by
  after_results_simp

theorem q0_arg7 (W : Valuation τ sig (Elt F)) : after w0 W (Proc.devRef .tc main_arg7) = W (Proc.devRef .tc main_arg7) := by
  after_results_simp

theorem q0_arg8 (W : Valuation τ sig (Elt F)) : after w0 W (Proc.devRef .tc main_arg8) = W (Proc.devRef .tc main_arg8) := by
  after_results_simp

theorem q0_arg9 (W : Valuation τ sig (Elt F)) : after w0 W (Proc.devRef .tc main_arg9) = W (Proc.devRef .tc main_arg9) := by
  after_results_simp

theorem q0_arg10 (W : Valuation τ sig (Elt F)) : after w0 W (Proc.devRef .tc main_arg10) = W (Proc.devRef .tc main_arg10) := by
  after_results_simp

theorem q0_arg11 (W : Valuation τ sig (Elt F)) : after w0 W (Proc.devRef .tc main_arg11) = W (Proc.devRef .tc main_arg11) := by
  after_results_simp

theorem q0_arg12 (W : Valuation τ sig (Elt F)) : after w0 W (Proc.devRef .tc main_arg12) = W (Proc.devRef .tc main_arg12) := by
  after_results_simp

theorem q0_arg13 (W : Valuation τ sig (Elt F)) : after w0 W (Proc.devRef .tc main_arg13) = W (Proc.devRef .tc main_arg13) := by
  after_results_simp

theorem q0_arg14 (W : Valuation τ sig (Elt F)) : after w0 W (Proc.devRef .tc main_arg14) = W (Proc.devRef .tc main_arg14) := by
  after_results_simp

theorem q0_arg15 (W : Valuation τ sig (Elt F)) : after w0 W (Proc.devRef .tc main_arg15) = W (Proc.devRef .tc main_arg15) := by
  after_results_simp

theorem q0_arg16 (W : Valuation τ sig (Elt F)) : after w0 W (Proc.devRef .tc main_arg16) = W (Proc.devRef .tc main_arg16) := by
  after_results_simp

theorem r1_v75 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h32 : W (Proc.devRef .tc main_v32) = val_main_v32 x0 x3)
    (g4 : W (Proc.devRef .tc main_arg4) = x4)
    (g5 : W (Proc.devRef .tc main_arg5) = x5)
    (g6 : W (Proc.devRef .tc main_arg6) = x6)
    (g7 : W (Proc.devRef .tc main_arg7) = x7) :
    after w1 W (Proc.devRef .tc main_v75) = val_main_v75 x0 x1 x3 x4 x5 x6 x7 := by
  after_results_simp
  try simp only [Cert.Lib.ofBuf_toBuf, Cert.Lib.toBuf_ofBuf]
  try rw [h3]
  try rw [h7]
  try rw [h31]
  try rw [h32]
  try rw [g4]
  try rw [g5]
  try rw [g6]
  try rw [g7]
  rfl

theorem q1_v3 (W : Valuation τ sig (Elt F)) : after w1 W (Proc.devRef .tc main_v3) = W (Proc.devRef .tc main_v3) := by
  after_results_simp

theorem q1_v7 (W : Valuation τ sig (Elt F)) : after w1 W (Proc.devRef .tc main_v7) = W (Proc.devRef .tc main_v7) := by
  after_results_simp

theorem q1_v31 (W : Valuation τ sig (Elt F)) : after w1 W (Proc.devRef .tc main_v31) = W (Proc.devRef .tc main_v31) := by
  after_results_simp

theorem q1_arg2 (W : Valuation τ sig (Elt F)) : after w1 W (Proc.devRef .tc main_arg2) = W (Proc.devRef .tc main_arg2) := by
  after_results_simp

theorem q1_arg8 (W : Valuation τ sig (Elt F)) : after w1 W (Proc.devRef .tc main_arg8) = W (Proc.devRef .tc main_arg8) := by
  after_results_simp

theorem q1_arg9 (W : Valuation τ sig (Elt F)) : after w1 W (Proc.devRef .tc main_arg9) = W (Proc.devRef .tc main_arg9) := by
  after_results_simp

theorem q1_arg10 (W : Valuation τ sig (Elt F)) : after w1 W (Proc.devRef .tc main_arg10) = W (Proc.devRef .tc main_arg10) := by
  after_results_simp

theorem q1_arg11 (W : Valuation τ sig (Elt F)) : after w1 W (Proc.devRef .tc main_arg11) = W (Proc.devRef .tc main_arg11) := by
  after_results_simp

theorem q1_arg12 (W : Valuation τ sig (Elt F)) : after w1 W (Proc.devRef .tc main_arg12) = W (Proc.devRef .tc main_arg12) := by
  after_results_simp

theorem q1_arg13 (W : Valuation τ sig (Elt F)) : after w1 W (Proc.devRef .tc main_arg13) = W (Proc.devRef .tc main_arg13) := by
  after_results_simp

theorem q1_arg14 (W : Valuation τ sig (Elt F)) : after w1 W (Proc.devRef .tc main_arg14) = W (Proc.devRef .tc main_arg14) := by
  after_results_simp

theorem q1_arg15 (W : Valuation τ sig (Elt F)) : after w1 W (Proc.devRef .tc main_arg15) = W (Proc.devRef .tc main_arg15) := by
  after_results_simp

theorem q1_arg16 (W : Valuation τ sig (Elt F)) : after w1 W (Proc.devRef .tc main_arg16) = W (Proc.devRef .tc main_arg16) := by
  after_results_simp

theorem r2_v118 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h75 : W (Proc.devRef .tc main_v75) = val_main_v75 x0 x1 x3 x4 x5 x6 x7)
    (g8 : W (Proc.devRef .tc main_arg8) = x8)
    (g9 : W (Proc.devRef .tc main_arg9) = x9)
    (g10 : W (Proc.devRef .tc main_arg10) = x10)
    (g11 : W (Proc.devRef .tc main_arg11) = x11) :
    after w2 W (Proc.devRef .tc main_v118) = val_main_v118 x0 x1 x3 x4 x5 x6 x7 x8 x9 x10 x11 := by
  after_results_simp
  try simp only [Cert.Lib.ofBuf_toBuf, Cert.Lib.toBuf_ofBuf]
  try rw [h3]
  try rw [h7]
  try rw [h31]
  try rw [h75]
  try rw [g8]
  try rw [g9]
  try rw [g10]
  try rw [g11]
  rfl

theorem q2_v3 (W : Valuation τ sig (Elt F)) : after w2 W (Proc.devRef .tc main_v3) = W (Proc.devRef .tc main_v3) := by
  after_results_simp

theorem q2_v7 (W : Valuation τ sig (Elt F)) : after w2 W (Proc.devRef .tc main_v7) = W (Proc.devRef .tc main_v7) := by
  after_results_simp

theorem q2_v31 (W : Valuation τ sig (Elt F)) : after w2 W (Proc.devRef .tc main_v31) = W (Proc.devRef .tc main_v31) := by
  after_results_simp

theorem q2_arg2 (W : Valuation τ sig (Elt F)) : after w2 W (Proc.devRef .tc main_arg2) = W (Proc.devRef .tc main_arg2) := by
  after_results_simp

theorem q2_arg12 (W : Valuation τ sig (Elt F)) : after w2 W (Proc.devRef .tc main_arg12) = W (Proc.devRef .tc main_arg12) := by
  after_results_simp

theorem q2_arg13 (W : Valuation τ sig (Elt F)) : after w2 W (Proc.devRef .tc main_arg13) = W (Proc.devRef .tc main_arg13) := by
  after_results_simp

theorem q2_arg14 (W : Valuation τ sig (Elt F)) : after w2 W (Proc.devRef .tc main_arg14) = W (Proc.devRef .tc main_arg14) := by
  after_results_simp

theorem q2_arg15 (W : Valuation τ sig (Elt F)) : after w2 W (Proc.devRef .tc main_arg15) = W (Proc.devRef .tc main_arg15) := by
  after_results_simp

theorem q2_arg16 (W : Valuation τ sig (Elt F)) : after w2 W (Proc.devRef .tc main_arg16) = W (Proc.devRef .tc main_arg16) := by
  after_results_simp

theorem r3_v160 (W : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F))
    (h3 : W (Proc.devRef .tc main_v3) = val_main_v3 x1)
    (h7 : W (Proc.devRef .tc main_v7) = val_main_v7 x1)
    (h31 : W (Proc.devRef .tc main_v31) = val_main_v31 x1)
    (h118 : W (Proc.devRef .tc main_v118) = val_main_v118 x0 x1 x3 x4 x5 x6 x7 x8 x9 x10 x11)
    (g12 : W (Proc.devRef .tc main_arg12) = x12)
    (g13 : W (Proc.devRef .tc main_arg13) = x13)
    (g14 : W (Proc.devRef .tc main_arg14) = x14) :
    after w3 W (Proc.devRef .tc main_v160) = val_main_v160 x0 x1 x3 x4 x5 x6 x7 x8 x9 x10 x11 x12 x13 x14 := by
  after_results_simp
  try simp only [Cert.Lib.ofBuf_toBuf, Cert.Lib.toBuf_ofBuf]
  try rw [h3]
  try rw [h7]
  try rw [h31]
  try rw [h118]
  try rw [g12]
  try rw [g13]
  try rw [g14]
  rfl

theorem q3_arg2 (W : Valuation τ sig (Elt F)) : after w3 W (Proc.devRef .tc main_arg2) = W (Proc.devRef .tc main_arg2) := by
  after_results_simp

theorem q3_arg15 (W : Valuation τ sig (Elt F)) : after w3 W (Proc.devRef .tc main_arg15) = W (Proc.devRef .tc main_arg15) := by
  after_results_simp

theorem q3_arg16 (W : Valuation τ sig (Elt F)) : after w3 W (Proc.devRef .tc main_arg16) = W (Proc.devRef .tc main_arg16) := by
  after_results_simp

theorem r4_v176 (W : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S128x128, .f32⟩ : BufTy).Contents (Elt F)) (x12 : (⟨S128, .f32⟩ : BufTy).Contents (Elt F)) (x13 : (⟨S128, .f32⟩ : BufTy).Contents (Elt F)) (x14 : (⟨S128, .f32⟩ : BufTy).Contents (Elt F)) (x15 : (⟨S128x1, .f32⟩ : BufTy).Contents (Elt F)) (x16 : (⟨S1, .f32⟩ : BufTy).Contents (Elt F))
    (h160 : W (Proc.devRef .tc main_v160) = val_main_v160 x0 x1 x3 x4 x5 x6 x7 x8 x9 x10 x11 x12 x13 x14)
    (g2 : W (Proc.devRef .tc main_arg2) = x2)
    (g15 : W (Proc.devRef .tc main_arg15) = x15)
    (g16 : W (Proc.devRef .tc main_arg16) = x16) :
    after w4 W (Proc.devRef .tc main_v176) = val_main_v176 x0 x1 x2 x3 x4 x5 x6 x7 x8 x9 x10 x11 x12 x13 x14 x15 x16 := by
  after_results_simp
  try simp only [Cert.Lib.ofBuf_toBuf, Cert.Lib.toBuf_ofBuf]
  try rw [h160]
  try rw [g2]
  try rw [g15]
  try rw [g16]
  rfl

/-! ## The whole line -/

/-- The fold of the reference's operations, at the result buffer, is the last stage of the contents the fold starts
    from at the argument buffers. -/
theorem ref_fold (W : Valuation τ sig (Elt F)) :
    after (Cert.ReferenceIdeal.ValueP.ops (F := F)) W (Proc.devRef .tc main_v176)
      = val_main_v176 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [ops_eq, Cert.Lib.after_append, Cert.Lib.after_append, Cert.Lib.after_append, Cert.Lib.after_append]
  -- the contents after each window
  have a3 := r0_v3 W _ rfl
  have a7 := r0_v7 W _ rfl
  have a31 := r0_v31 W _ rfl
  have a32 := r0_v32 W _ _ rfl rfl
  have b3 := (q1_v3 (after w0 W)).trans a3
  have b7 := (q1_v7 (after w0 W)).trans a7
  have b31 := (q1_v31 (after w0 W)).trans a31
  have b75 := r1_v75 (after w0 W) _ _ _ _ _ _ _ a3 a7 a31 a32 (q0_arg4 W) (q0_arg5 W) (q0_arg6 W) (q0_arg7 W)
  have c3 := (q2_v3 (after w1 (after w0 W))).trans b3
  have c7 := (q2_v7 (after w1 (after w0 W))).trans b7
  have c31 := (q2_v31 (after w1 (after w0 W))).trans b31
  have c118 := r2_v118 (after w1 (after w0 W)) _ _ _ _ _ _ _ _ _ _ _ b3 b7 b31 b75
    ((q1_arg8 (after w0 W)).trans (q0_arg8 W)) ((q1_arg9 (after w0 W)).trans (q0_arg9 W))
    ((q1_arg10 (after w0 W)).trans (q0_arg10 W)) ((q1_arg11 (after w0 W)).trans (q0_arg11 W))
  have d160 := r3_v160 (after w2 (after w1 (after w0 W))) _ _ _ _ _ _ _ _ _ _ _ _ _ _ c3 c7 c31 c118
    ((q2_arg12 (after w1 (after w0 W))).trans ((q1_arg12 (after w0 W)).trans (q0_arg12 W)))
    ((q2_arg13 (after w1 (after w0 W))).trans ((q1_arg13 (after w0 W)).trans (q0_arg13 W)))
    ((q2_arg14 (after w1 (after w0 W))).trans ((q1_arg14 (after w0 W)).trans (q0_arg14 W)))
  exact r4_v176 (after w3 (after w2 (after w1 (after w0 W)))) _ _ _ _ _ _ _ _ _ _ _ _ _ _ _ _ _ d160
    ((q3_arg2 (after w2 (after w1 (after w0 W)))).trans ((q2_arg2 (after w1 (after w0 W))).trans ((q1_arg2 (after w0 W)).trans (q0_arg2 W))))
    ((q3_arg15 (after w2 (after w1 (after w0 W)))).trans ((q2_arg15 (after w1 (after w0 W))).trans ((q1_arg15 (after w0 W)).trans (q0_arg15 W))))
    ((q3_arg16 (after w2 (after w1 (after w0 W)))).trans ((q2_arg16 (after w1 (after w0 W))).trans ((q1_arg16 (after w0 W)).trans (q0_arg16 W))))

/-- No operation writes argument 0. -/
theorem ref_arg0 (W : Valuation τ sig (Elt F)) :
    after (Cert.ReferenceIdeal.ValueP.ops (F := F)) W (Proc.devRef .tc main_arg0) = W (Proc.devRef .tc main_arg0) := by
  after_results_simp

/-- No operation writes argument 1. -/
theorem ref_arg1 (W : Valuation τ sig (Elt F)) :
    after (Cert.ReferenceIdeal.ValueP.ops (F := F)) W (Proc.devRef .tc main_arg1) = W (Proc.devRef .tc main_arg1) := by
  after_results_simp

/-- No operation writes argument 2. -/
theorem ref_arg2 (W : Valuation τ sig (Elt F)) :
    after (Cert.ReferenceIdeal.ValueP.ops (F := F)) W (Proc.devRef .tc main_arg2) = W (Proc.devRef .tc main_arg2) := by
  after_results_simp

/-- No operation writes argument 3. -/
theorem ref_arg3 (W : Valuation τ sig (Elt F)) :
    after (Cert.ReferenceIdeal.ValueP.ops (F := F)) W (Proc.devRef .tc main_arg3) = W (Proc.devRef .tc main_arg3) := by
  after_results_simp

/-- No operation writes argument 4. -/
theorem ref_arg4 (W : Valuation τ sig (Elt F)) :
    after (Cert.ReferenceIdeal.ValueP.ops (F := F)) W (Proc.devRef .tc main_arg4) = W (Proc.devRef .tc main_arg4) := by
  after_results_simp

/-- No operation writes argument 5. -/
theorem ref_arg5 (W : Valuation τ sig (Elt F)) :
    after (Cert.ReferenceIdeal.ValueP.ops (F := F)) W (Proc.devRef .tc main_arg5) = W (Proc.devRef .tc main_arg5) := by
  after_results_simp

/-- No operation writes argument 6. -/
theorem ref_arg6 (W : Valuation τ sig (Elt F)) :
    after (Cert.ReferenceIdeal.ValueP.ops (F := F)) W (Proc.devRef .tc main_arg6) = W (Proc.devRef .tc main_arg6) := by
  after_results_simp

/-- No operation writes argument 7. -/
theorem ref_arg7 (W : Valuation τ sig (Elt F)) :
    after (Cert.ReferenceIdeal.ValueP.ops (F := F)) W (Proc.devRef .tc main_arg7) = W (Proc.devRef .tc main_arg7) := by
  after_results_simp

/-- No operation writes argument 8. -/
theorem ref_arg8 (W : Valuation τ sig (Elt F)) :
    after (Cert.ReferenceIdeal.ValueP.ops (F := F)) W (Proc.devRef .tc main_arg8) = W (Proc.devRef .tc main_arg8) := by
  after_results_simp

/-- No operation writes argument 9. -/
theorem ref_arg9 (W : Valuation τ sig (Elt F)) :
    after (Cert.ReferenceIdeal.ValueP.ops (F := F)) W (Proc.devRef .tc main_arg9) = W (Proc.devRef .tc main_arg9) := by
  after_results_simp

/-- No operation writes argument 10. -/
theorem ref_arg10 (W : Valuation τ sig (Elt F)) :
    after (Cert.ReferenceIdeal.ValueP.ops (F := F)) W (Proc.devRef .tc main_arg10) = W (Proc.devRef .tc main_arg10) := by
  after_results_simp

/-- No operation writes argument 11. -/
theorem ref_arg11 (W : Valuation τ sig (Elt F)) :
    after (Cert.ReferenceIdeal.ValueP.ops (F := F)) W (Proc.devRef .tc main_arg11) = W (Proc.devRef .tc main_arg11) := by
  after_results_simp

/-- No operation writes argument 12. -/
theorem ref_arg12 (W : Valuation τ sig (Elt F)) :
    after (Cert.ReferenceIdeal.ValueP.ops (F := F)) W (Proc.devRef .tc main_arg12) = W (Proc.devRef .tc main_arg12) := by
  after_results_simp

/-- No operation writes argument 13. -/
theorem ref_arg13 (W : Valuation τ sig (Elt F)) :
    after (Cert.ReferenceIdeal.ValueP.ops (F := F)) W (Proc.devRef .tc main_arg13) = W (Proc.devRef .tc main_arg13) := by
  after_results_simp

/-- No operation writes argument 14. -/
theorem ref_arg14 (W : Valuation τ sig (Elt F)) :
    after (Cert.ReferenceIdeal.ValueP.ops (F := F)) W (Proc.devRef .tc main_arg14) = W (Proc.devRef .tc main_arg14) := by
  after_results_simp

/-- No operation writes argument 15. -/
theorem ref_arg15 (W : Valuation τ sig (Elt F)) :
    after (Cert.ReferenceIdeal.ValueP.ops (F := F)) W (Proc.devRef .tc main_arg15) = W (Proc.devRef .tc main_arg15) := by
  after_results_simp

/-- No operation writes argument 16. -/
theorem ref_arg16 (W : Valuation τ sig (Elt F)) :
    after (Cert.ReferenceIdeal.ValueP.ops (F := F)) W (Proc.devRef .tc main_arg16) = W (Proc.devRef .tc main_arg16) := by
  after_results_simp

end Cert.RefFold

end
-- ==== Proof.lean ====
/-
  A three-layer graph-convolution network with batch normalisation, mean pooling and a linear read-out: the kernel
  runs the three projections, the three fused normalise-and-clamp passes and the read-out as tiled regions among
  the host lines that gather and scatter along the edges; the reference is the same network in plain array code.

  The three frames: the kernel's two are the generated frame runs; the reference is a straight line of host
  operations, so every buffer ends at the fold of the operations' results and no operation writes an argument.
  The idealization rewrote nothing. On the extended reals both programs return the reference's last stage of the
  launch arguments: the kernel's result buffer holds it at the last segment boundary (walked boundary by boundary:
  each host stretch is the reference's stretch, each region's array the reference's matching stage), and the
  reference's fold at its result buffer is that stage by definition of the stages. No law of the extended reals beyond
  `0 + x = x` and the reading of a matrix product as a sum is used, so the precondition is never opened.
-/
import proofs.«127011_j4758823764123_1_alg».proof.Defs
import proofs.«127011_j4758823764123_1_alg».proof.Proof.Gen.Kernel
import proofs.«127011_j4758823764123_1_alg».proof.Proof.Gen.Kernel.Frame
import proofs.«127011_j4758823764123_1_alg».proof.Proof.Gen.KernelIdeal
import proofs.«127011_j4758823764123_1_alg».proof.Proof.Gen.KernelIdeal.Frame
import proofs.«127011_j4758823764123_1_alg».proof.Proof.Gen.ReferenceIdeal
import proofs.«127011_j4758823764123_1_alg».proof.Proof.Gen.Pre_finite_inputs
import proofs.«127011_j4758823764123_1_alg».proof.Proof.KRun
import proofs.«127011_j4758823764123_1_alg».proof.Proof.Chain
import proofs.«127011_j4758823764123_1_alg».proof.Proof.RunP
import proofs.«127011_j4758823764123_1_alg».proof.Proof.RefFold
import Idealize.ShloMosaic.Adequacy
import Idealize.ShloMosaic.Init

noncomputable section

namespace Cert.Proof

open Idealize.ShloMosaic Idealize.ShloMosaic.TcCoe Idealize.SL.Sem

/-- The kernel as printed: the generated frame run. -/
theorem frame_k : Cert.frame_Kernel := fun m ρ _ => Cert.Kernel.Gen.frame m ρ

/-- The idealized kernel: the generated frame run. -/
theorem frame_ki : Cert.frame_KernelIdeal := fun m ρ _ => Cert.KernelIdeal.Gen.frame m ρ

/-- The reference: every buffer ends at the fold of the host operations, and none of them writes an argument. -/
theorem frame_ri : Cert.frame_ReferenceIdeal := fun m ρ _ =>
  (θ_run Cert.ReferenceIdeal.defs _ _).mono
    (fun r h c => ⟨(h c Cert.ReferenceIdeal.main_arg0).trans (Cert.RefFold.ref_arg0 _),
      (h c Cert.ReferenceIdeal.main_arg1).trans (Cert.RefFold.ref_arg1 _),
      (h c Cert.ReferenceIdeal.main_arg2).trans (Cert.RefFold.ref_arg2 _),
      (h c Cert.ReferenceIdeal.main_arg3).trans (Cert.RefFold.ref_arg3 _),
      (h c Cert.ReferenceIdeal.main_arg4).trans (Cert.RefFold.ref_arg4 _),
      (h c Cert.ReferenceIdeal.main_arg5).trans (Cert.RefFold.ref_arg5 _),
      (h c Cert.ReferenceIdeal.main_arg6).trans (Cert.RefFold.ref_arg6 _),
      (h c Cert.ReferenceIdeal.main_arg7).trans (Cert.RefFold.ref_arg7 _),
      (h c Cert.ReferenceIdeal.main_arg8).trans (Cert.RefFold.ref_arg8 _),
      (h c Cert.ReferenceIdeal.main_arg9).trans (Cert.RefFold.ref_arg9 _),
      (h c Cert.ReferenceIdeal.main_arg10).trans (Cert.RefFold.ref_arg10 _),
      (h c Cert.ReferenceIdeal.main_arg11).trans (Cert.RefFold.ref_arg11 _),
      (h c Cert.ReferenceIdeal.main_arg12).trans (Cert.RefFold.ref_arg12 _),
      (h c Cert.ReferenceIdeal.main_arg13).trans (Cert.RefFold.ref_arg13 _),
      (h c Cert.ReferenceIdeal.main_arg14).trans (Cert.RefFold.ref_arg14 _),
      (h c Cert.ReferenceIdeal.main_arg15).trans (Cert.RefFold.ref_arg15 _),
      (h c Cert.ReferenceIdeal.main_arg16).trans (Cert.RefFold.ref_arg16 _)⟩)
    (Cert.ReferenceIdeal.ValueP.run (F := Ideal) m ρ)

/-- The idealization rewrote no operation. -/
theorem preserves : Cert.preserves_Kernel_KernelIdeal := trivial

/-- Both idealized programs, run from memories agreeing on the arguments, end with the reference's last stage of the
    arguments in their result buffers, the arguments unchanged. -/
theorem algebraic : Cert.algebraic_KernelIdeal_ReferenceIdeal := by
  intro m ρ m' ρ' _ hagree
  refine ⟨fun c => Cert.ReferenceIdeal.ReadP.val_main_v176 (F := Ideal) (Cert.Chain.a0 m c) (Cert.Chain.a1 m c) (Cert.Chain.a2 m c) (Cert.Chain.a3 m c) (Cert.Chain.a4 m c) (Cert.Chain.a5 m c) (Cert.Chain.a6 m c) (Cert.Chain.a7 m c) (Cert.Chain.a8 m c) (Cert.Chain.a9 m c) (Cert.Chain.a10 m c) (Cert.Chain.a11 m c) (Cert.Chain.a12 m c) (Cert.Chain.a13 m c) (Cert.Chain.a14 m c) (Cert.Chain.a15 m c) (Cert.Chain.a16 m c), ?_, ?_⟩
  · exact (θ_run Cert.KernelIdeal.defs _ _).mono
      (fun r h c => ⟨(h c).1.trans (Cert.Chain.result_eq m ρ c), (h c).2⟩)
      (Cert.KernelIdeal.KRun.run_named (F := Ideal) m ρ)
  · refine (θ_run Cert.ReferenceIdeal.defs _ _).mono (fun r h c => ⟨?_, (h c Cert.ReferenceIdeal.main_arg0).trans (Cert.RefFold.ref_arg0 _),
      (h c Cert.ReferenceIdeal.main_arg1).trans (Cert.RefFold.ref_arg1 _),
      (h c Cert.ReferenceIdeal.main_arg2).trans (Cert.RefFold.ref_arg2 _),
      (h c Cert.ReferenceIdeal.main_arg3).trans (Cert.RefFold.ref_arg3 _),
      (h c Cert.ReferenceIdeal.main_arg4).trans (Cert.RefFold.ref_arg4 _),
      (h c Cert.ReferenceIdeal.main_arg5).trans (Cert.RefFold.ref_arg5 _),
      (h c Cert.ReferenceIdeal.main_arg6).trans (Cert.RefFold.ref_arg6 _),
      (h c Cert.ReferenceIdeal.main_arg7).trans (Cert.RefFold.ref_arg7 _),
      (h c Cert.ReferenceIdeal.main_arg8).trans (Cert.RefFold.ref_arg8 _),
      (h c Cert.ReferenceIdeal.main_arg9).trans (Cert.RefFold.ref_arg9 _),
      (h c Cert.ReferenceIdeal.main_arg10).trans (Cert.RefFold.ref_arg10 _),
      (h c Cert.ReferenceIdeal.main_arg11).trans (Cert.RefFold.ref_arg11 _),
      (h c Cert.ReferenceIdeal.main_arg12).trans (Cert.RefFold.ref_arg12 _),
      (h c Cert.ReferenceIdeal.main_arg13).trans (Cert.RefFold.ref_arg13 _),
      (h c Cert.ReferenceIdeal.main_arg14).trans (Cert.RefFold.ref_arg14 _),
      (h c Cert.ReferenceIdeal.main_arg15).trans (Cert.RefFold.ref_arg15 _),
      (h c Cert.ReferenceIdeal.main_arg16).trans (Cert.RefFold.ref_arg16 _)⟩)
      (Cert.ReferenceIdeal.ValueP.run (F := Ideal) m' ρ')
    refine (h c Cert.ReferenceIdeal.main_v176).trans ((Cert.RefFold.ref_fold _).trans ?_)
    obtain ⟨e0, e1, e2, e3, e4, e5, e6, e7, e8, e9, e10, e11, e12, e13, e14, e15, e16⟩ := hagree c
    show Cert.ReferenceIdeal.ReadP.val_main_v176 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
